-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x128 .f32) (main_arg1 : FVec F S20000x3 .f32) (main_arg2 : IVec S2x640000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S1x128 : Shape := ⟨2, ![1, 128]⟩
abbrev S1x1 : Shape := ⟨2, ![1, 1]⟩
abbrev S5120x128 : Shape := ⟨2, ![5120, 128]⟩
abbrev S5120x3 : Shape := ⟨2, ![5120, 3]⟩
abbrev S5120 : Shape := ⟨1, ![5120]⟩
abbrev S5120x1 : Shape := ⟨2, ![5120, 1]⟩
abbrev S2000x128 : Shape := ⟨2, ![2000, 128]⟩

abbrev nBuf : Space → Nat
  | .hbm => 80
  | .vmem => 27
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x3, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x3, .f32⟩
  | .hbm, ⟨33, _⟩ => ⟨S640000x3, .f32⟩
  | .hbm, ⟨34, _⟩ => ⟨S20000x128, .bf16⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .bf16⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .bf16⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S1x128, .f32⟩
  | .hbm, ⟨58, _⟩ => ⟨S1x128, .f32⟩
  | .hbm, ⟨59, _⟩ => ⟨S128x128, .bf16⟩
  | .hbm, ⟨60, _⟩ => ⟨S1x128, .f32⟩
  | .hbm, ⟨61, _⟩ => ⟨S128x1, .bf16⟩
  | .hbm, ⟨62, _⟩ => ⟨S1x1, .f32⟩
  | .hbm, ⟨63, _⟩ => ⟨S640000x128, .f32⟩
  | .hbm, ⟨64, _⟩ => ⟨S640000x3, .f32⟩
  | .hbm, ⟨65, _⟩ => ⟨S_, .f32⟩
  | .hbm, ⟨66, _⟩ => ⟨S20000x3, .f32⟩
  | .hbm, ⟨67, _⟩ => ⟨S640000x1, .i32⟩
  | .hbm, ⟨68, _⟩ => ⟨S20000x3, .f32⟩
  | .hbm, ⟨69, _⟩ => ⟨S20000x3, .f32⟩
  | .hbm, ⟨70, _⟩ => ⟨S_, .f32⟩
  | .hbm, ⟨71, _⟩ => ⟨S20000x128, .f32⟩
  | .hbm, ⟨72, _⟩ => ⟨S640000x1, .i32⟩
  | .hbm, ⟨73, _⟩ => ⟨S20000x128, .f32⟩
  | .hbm, ⟨74, _⟩ => ⟨S128x128, .f32⟩
  | .hbm, ⟨75, _⟩ => ⟨S128x128, .bf16⟩
  | .hbm, ⟨76, _⟩ => ⟨S128x128, .f32⟩
  | .hbm, ⟨77, _⟩ => ⟨S128x128, .bf16⟩
  | .hbm, ⟨78, _⟩ => ⟨S1x128, .f32⟩
  | .hbm, ⟨79, _⟩ => ⟨S20000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x3, .f32⟩
  | .local _ .vmem, ⟨5, _⟩ => ⟨S5120x3, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x1, .bf16⟩
  | .local _ .vmem, ⟨13, _⟩ => ⟨S1x1, .f32⟩
  | .local _ .vmem, ⟨14, _⟩ => ⟨S5120x128, .f32⟩
  | .local _ .vmem, ⟨15, _⟩ => ⟨S5120x128, .f32⟩
  | .local _ .vmem, ⟨16, _⟩ => ⟨S5120x3, .f32⟩
  | .local _ .vmem, ⟨17, _⟩ => ⟨S5120x3, .f32⟩
  | .local _ .vmem, ⟨18, _⟩ => ⟨S2000x128, .bf16⟩
  | .local _ .vmem, ⟨19, _⟩ => ⟨S2000x128, .bf16⟩
  | .local _ .vmem, ⟨20, _⟩ => ⟨S2000x128, .f32⟩
  | .local _ .vmem, ⟨21, _⟩ => ⟨S2000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_cst : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5120x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5120x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S5120x3_S5120x3_0_0 : ∀ a, (![0, 0] : Fin 2 → Nat) a + S5120x3.size a ≤ S5120x3.size a
  h_S5120x3 : 0 < S5120x3.numel
  shapeCasts_S5120x3_S5120x3 : S5120x3.ShapeCasts S5120x3
  reduces_S5120x3_S5120 : S5120x3.Reduces [1] S5120
  shapeCasts_S5120_S5120x1 : S5120.ShapeCasts S5120x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5120x1_S5120x128 : S5120x1.Broadcasts S5120x128
  broadcasts_S1x128_S5120x128 : S1x128.Broadcasts S5120x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  broadcasts_S5120x1_S5120x3 : S5120x1.Broadcasts S5120x3
  bcast_S_S20000x3 : S_.BroadcastsInDim S20000x3 (![] : Fin 0 → Fin S20000x3.rank)
  bcast_S_S20000x128 : S_.BroadcastsInDim S20000x128 (![] : Fin 0 → Fin S20000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S5120x128_S128x128_S5120x128_1_0_0_1_n_n_wf : DotDims.WF S5120x128 S128x128 S5120x128 [1] [0] [0] [1] [] []
  dot_S5120x128_S128x1_S5120x1_1_0_0_1_n_n_wf : DotDims.WF S5120x128 S128x1 S5120x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x3.size a ≤ S640000x3.size a
  hwx0_2 : ∀ i : grid0.Coords, EltTy.bits .f32 = 32 ∨ (Rect.block (s := S640000x3) S5120x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .bf16 = 32 ∨ (Rect.block (s := S128x1) S128x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5120x128.size a ≤ S640000x128.size a
  hwx0_11 : ∀ i : grid0.Coords, EltTy.bits .f32 = 32 ∨ (Rect.block (s := S640000x128) S5120x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5120x3.size a ≤ S640000x3.size a
  hwx0_12 : ∀ i : grid0.Coords, EltTy.bits .f32 = 32 ∨ (Rect.block (s := S640000x3) S5120x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .bf16 = 32 ∨ (Rect.block (s := S20000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x128_S128x1_S5120x1_1_0_0_1_n_n : DotDims S5120x128 S128x1 S5120x1 where
  lhsContracting := [1]
  rhsContracting := [0]
  lhsNonContracting := [0]
  rhsNonContracting := [1]
  lhsBatch := []
  rhsBatch := []
  wf := dot_S5120x128_S128x1_S5120x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5120x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44_0) S5120x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v44_1) S5120x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S1x1 : Shape := ⟨2, ![1, 1]⟩
abbrev S20000x256 : Shape := ⟨2, ![20000, 256]⟩

abbrev nBuf : Space → Nat
  | .hbm => 113
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x3, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x3, .f32⟩
  | .hbm, ⟨33, _⟩ => ⟨S640000x3, .f32⟩
  | .hbm, ⟨34, _⟩ => ⟨S640000x3, .f32⟩
  | .hbm, ⟨35, _⟩ => ⟨S_, .f32⟩
  | .hbm, ⟨36, _⟩ => ⟨S640000, .f32⟩
  | .hbm, ⟨37, _⟩ => ⟨S640000x1, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x257, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S1x128, .f32⟩
  | .hbm, ⟨72, _⟩ => ⟨S640000x128, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S_, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S640000x1, .f32⟩
  | .hbm, ⟨84, _⟩ => ⟨S1x1, .f32⟩
  | .hbm, ⟨85, _⟩ => ⟨S640000x1, .f32⟩
  | .hbm, ⟨86, _⟩ => ⟨S640000x1, .f32⟩
  | .hbm, ⟨87, _⟩ => ⟨S640000x1, .f32⟩
  | .hbm, ⟨88, _⟩ => ⟨S640000x3, .f32⟩
  | .hbm, ⟨89, _⟩ => ⟨S640000x3, .f32⟩
  | .hbm, ⟨90, _⟩ => ⟨S_, .f32⟩
  | .hbm, ⟨91, _⟩ => ⟨S20000x3, .f32⟩
  | .hbm, ⟨92, _⟩ => ⟨S640000x1, .i32⟩
  | .hbm, ⟨93, _⟩ => ⟨S20000x3, .f32⟩
  | .hbm, ⟨94, _⟩ => ⟨S20000x3, .f32⟩
  | .hbm, ⟨95, _⟩ => ⟨S_, .f32⟩
  | .hbm, ⟨96, _⟩ => ⟨S20000x128, .f32⟩
  | .hbm, ⟨97, _⟩ => ⟨S640000x1, .i32⟩
  | .hbm, ⟨98, _⟩ => ⟨S20000x128, .f32⟩
  | .hbm, ⟨99, _⟩ => ⟨S20000x256, .f32⟩
  | .hbm, ⟨100, _⟩ => ⟨S20000x128, .f32⟩
  | .hbm, ⟨101, _⟩ => ⟨S1x128, .f32⟩
  | .hbm, ⟨102, _⟩ => ⟨S20000x128, .f32⟩
  | .hbm, ⟨103, _⟩ => ⟨S20000x128, .f32⟩
  | .hbm, ⟨104, _⟩ => ⟨S20000x128, .f32⟩
  | .hbm, ⟨105, _⟩ => ⟨S20000x128, .f32⟩
  | .hbm, ⟨106, _⟩ => ⟨S_, .f32⟩
  | .hbm, ⟨107, _⟩ => ⟨S20000x128, .f32⟩
  | .hbm, ⟨108, _⟩ => ⟨S20000x128, .f32⟩
  | .hbm, ⟨109, _⟩ => ⟨S_, .f32⟩
  | .hbm, ⟨110, _⟩ => ⟨S20000x128, .f32⟩
  | .hbm, ⟨111, _⟩ => ⟨S20000x128, .f32⟩
  | .hbm, ⟨112, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v66 : Ref sig .tc := ⟨.hbm, 112, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.RefRun.lean ====
/-
  The reference's run, read back one stretch at a time.

  The reference is a straight line of 102 host operations; after it, every buffer holds the fold of the operations'
  results over the launch memory.  The fold over a line that is two lines in a row is the fold over the second from where the
  first ends, so the line is read as six consecutive stretches, and after each stretch the buffers that a later stretch reads
  are named: the edge
  list's first row, the gathered features, the relative positions and their squared length after the first; the hidden layer
  after the second; the messages after the third; the second result (positions plus aggregated updates) after the fourth; the
  aggregated messages after the fifth; the first result after the last.  Each is the corresponding one-operation-at-a-time term
  of the arguments, and an argument buffer is never written.
-/
import proofs.«109307_j16587163698061_2_alg».proof.Proof.RefOps
import proofs.«109307_j16587163698061_2_alg».proof.Proof.RefRead

set_option maxRecDepth 16384

noncomputable section

namespace Cert.ReferenceIdeal.Stage

open Cert.ReferenceIdeal Cert.ReferenceIdeal.Gen Cert.ReferenceIdeal.Value Idealize.ShloMosaic Idealize.ShloMosaic.TcCoe Idealize.SL.Sem Idealize.ShloMosaic.StableHlo

/-- Running a line of operations that is two lines in a row is running the second from where the first ends. -/
theorem after_append {F : FTy → Type} [FloatOps F] (l₁ l₂ : List (HloOp τ sig (Elt F))) (V : Valuation τ sig (Elt F)) :
    after (l₁ ++ l₂) V = after l₂ (after l₁ V) := by
  induction l₁ generalizing V with
  | nil => rfl
  | cons a l ih => exact ih _

section Valuations
variable {F : FTy → Type} [FloatOps F] (m : (ℓ : Loc nD τ sig) → Buf (Elt F) ℓ) (c : Dev nD)

/-- The buffers after each stretch. -/
def VA : Valuation τ sig (Elt F) := after opsA (launchContents m c)
def VB : Valuation τ sig (Elt F) := after opsB (VA m c)
def VC : Valuation τ sig (Elt F) := after opsC (VB m c)
def VD : Valuation τ sig (Elt F) := after opsD (VC m c)
def VE : Valuation τ sig (Elt F) := after opsE (VD m c)
def VG : Valuation τ sig (Elt F) := after opsG (VE m c)

/-- After all 102 operations the buffers are those after the last stretch. -/
theorem after_ops : after ops (launchContents m c) = VG m c := by
  rw [ops_split, after_append, after_append, after_append, after_append, after_append]; rfl
end Valuations

variable (m : (ℓ : Loc nD τ sig) → Buf (Elt Ideal) ℓ) (c : Dev nD)

/-! ### After the first stretch: the edge list's rows, the gathers, the relative positions and their squared length -/
theorem A_arg0 : VA m c (Proc.devRef .tc main_arg0) = (m ((c.tc : Thread nD τ).loc main_arg0)) := by
  unfold VA; dsimp only [opsA]; after_results_simp
  try rfl
theorem A_arg1 : VA m c (Proc.devRef .tc main_arg1) = (m ((c.tc : Thread nD τ).loc main_arg1)) := by
  unfold VA; dsimp only [opsA]; after_results_simp
  try rfl
theorem A_arg3 : VA m c (Proc.devRef .tc main_arg3) = (m ((c.tc : Thread nD τ).loc main_arg3)) := by
  unfold VA; dsimp only [opsA]; after_results_simp
  try rfl
theorem A_arg4 : VA m c (Proc.devRef .tc main_arg4) = (m ((c.tc : Thread nD τ).loc main_arg4)) := by
  unfold VA; dsimp only [opsA]; after_results_simp
  try rfl
theorem A_arg5 : VA m c (Proc.devRef .tc main_arg5) = (m ((c.tc : Thread nD τ).loc main_arg5)) := by
  unfold VA; dsimp only [opsA]; after_results_simp
  try rfl
theorem A_arg6 : VA m c (Proc.devRef .tc main_arg6) = (m ((c.tc : Thread nD τ).loc main_arg6)) := by
  unfold VA; dsimp only [opsA]; after_results_simp
  try rfl
theorem A_arg7 : VA m c (Proc.devRef .tc main_arg7) = (m ((c.tc : Thread nD τ).loc main_arg7)) := by
  unfold VA; dsimp only [opsA]; after_results_simp
  try rfl
theorem A_arg8 : VA m c (Proc.devRef .tc main_arg8) = (m ((c.tc : Thread nD τ).loc main_arg8)) := by
  unfold VA; dsimp only [opsA]; after_results_simp
  try rfl
theorem A_arg9 : VA m c (Proc.devRef .tc main_arg9) = (m ((c.tc : Thread nD τ).loc main_arg9)) := by
  unfold VA; dsimp only [opsA]; after_results_simp
  try rfl
theorem A_arg10 : VA m c (Proc.devRef .tc main_arg10) = (m ((c.tc : Thread nD τ).loc main_arg10)) := by
  unfold VA; dsimp only [opsA]; after_results_simp
  try rfl
set_option maxHeartbeats 4000000 in
theorem A_v1 : VA m c (Proc.devRef .tc main_v1) = Cert.ReferenceIdeal.Read.val_main_v1 (F := Ideal) (m ((c.tc : Thread nD τ).loc main_arg2)) := by
  unfold VA; dsimp only [opsA]; after_results_simp
  try rfl
set_option maxHeartbeats 4000000 in
theorem A_v18 : VA m c (Proc.devRef .tc main_v18) = Cert.ReferenceIdeal.Read.val_main_v18 (F := Ideal) (m ((c.tc : Thread nD τ).loc main_arg1)) (m ((c.tc : Thread nD τ).loc main_arg2)) := by
  unfold VA; dsimp only [opsA]; after_results_simp
  try rfl
set_option maxHeartbeats 4000000 in
theorem A_v21 : VA m c (Proc.devRef .tc main_v21) = Cert.ReferenceIdeal.Read.val_main_v21 (F := Ideal) (m ((c.tc : Thread nD τ).loc main_arg1)) (m ((c.tc : Thread nD τ).loc main_arg2)) := by
  unfold VA; dsimp only [opsA]; after_results_simp
  try rfl
set_option maxHeartbeats 4000000 in
theorem A_v28 : VA m c (Proc.devRef .tc main_v28) = Cert.ReferenceIdeal.Read.val_main_v28 (F := Ideal) (m ((c.tc : Thread nD τ).loc main_arg0)) (m ((c.tc : Thread nD τ).loc main_arg2)) := by
  unfold VA; dsimp only [opsA]; after_results_simp
  try rfl
set_option maxHeartbeats 4000000 in
theorem A_v35 : VA m c (Proc.devRef .tc main_v35) = Cert.ReferenceIdeal.Read.val_main_v35 (F := Ideal) (m ((c.tc : Thread nD τ).loc main_arg0)) (m ((c.tc : Thread nD τ).loc main_arg2)) := by
  unfold VA; dsimp only [opsA]; after_results_simp
  try rfl

/-! ### After the second stretch: the hidden layer -/
theorem B_arg0 : VB m c (Proc.devRef .tc main_arg0) = (m ((c.tc : Thread nD τ).loc main_arg0)) := by
  unfold VB; dsimp only [opsB]; after_results_simp
  exact A_arg0 m c
theorem B_arg1 : VB m c (Proc.devRef .tc main_arg1) = (m ((c.tc : Thread nD τ).loc main_arg1)) := by
  unfold VB; dsimp only [opsB]; after_results_simp
  exact A_arg1 m c
theorem B_arg5 : VB m c (Proc.devRef .tc main_arg5) = (m ((c.tc : Thread nD τ).loc main_arg5)) := by
  unfold VB; dsimp only [opsB]; after_results_simp
  exact A_arg5 m c
theorem B_arg6 : VB m c (Proc.devRef .tc main_arg6) = (m ((c.tc : Thread nD τ).loc main_arg6)) := by
  unfold VB; dsimp only [opsB]; after_results_simp
  exact A_arg6 m c
theorem B_arg7 : VB m c (Proc.devRef .tc main_arg7) = (m ((c.tc : Thread nD τ).loc main_arg7)) := by
  unfold VB; dsimp only [opsB]; after_results_simp
  exact A_arg7 m c
theorem B_arg8 : VB m c (Proc.devRef .tc main_arg8) = (m ((c.tc : Thread nD τ).loc main_arg8)) := by
  unfold VB; dsimp only [opsB]; after_results_simp
  exact A_arg8 m c
theorem B_arg9 : VB m c (Proc.devRef .tc main_arg9) = (m ((c.tc : Thread nD τ).loc main_arg9)) := by
  unfold VB; dsimp only [opsB]; after_results_simp
  exact A_arg9 m c
theorem B_arg10 : VB m c (Proc.devRef .tc main_arg10) = (m ((c.tc : Thread nD τ).loc main_arg10)) := by
  unfold VB; dsimp only [opsB]; after_results_simp
  exact A_arg10 m c
theorem B_v1 : VB m c (Proc.devRef .tc main_v1) = Cert.ReferenceIdeal.Read.val_main_v1 (F := Ideal) (m ((c.tc : Thread nD τ).loc main_arg2)) := by
  unfold VB; dsimp only [opsB]; after_results_simp
  exact A_v1 m c
theorem B_v18 : VB m c (Proc.devRef .tc main_v18) = Cert.ReferenceIdeal.Read.val_main_v18 (F := Ideal) (m ((c.tc : Thread nD τ).loc main_arg1)) (m ((c.tc : Thread nD τ).loc main_arg2)) := by
  unfold VB; dsimp only [opsB]; after_results_simp
  exact A_v18 m c
set_option maxHeartbeats 4000000 in
theorem B_v41 : VB m c (Proc.devRef .tc main_v41) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold VB; dsimp only [opsB]; after_results_simp
  have e28 : VA m c (Proc.devRef .tc (![main_v28, main_v35, main_v21] 0)) = _ := A_v28 m c
  have e35 : VA m c (Proc.devRef .tc (![main_v28, main_v35, main_v21] 1)) = _ := A_v35 m c
  have e21 : VA m c (Proc.devRef .tc (![main_v28, main_v35, main_v21] 2)) = _ := A_v21 m c
  rw [e28, e35, e21, A_arg3, A_arg4]
  try rfl

/-! ### After the third stretch: the messages -/
theorem C_arg0 : VC m c (Proc.devRef .tc main_arg0) = (m ((c.tc : Thread nD τ).loc main_arg0)) := by
  unfold VC; dsimp only [opsC]; after_results_simp
  exact B_arg0 m c
theorem C_arg1 : VC m c (Proc.devRef .tc main_arg1) = (m ((c.tc : Thread nD τ).loc main_arg1)) := by
  unfold VC; dsimp only [opsC]; after_results_simp
  exact B_arg1 m c
theorem C_arg7 : VC m c (Proc.devRef .tc main_arg7) = (m ((c.tc : Thread nD τ).loc main_arg7)) := by
  unfold VC; dsimp only [opsC]; after_results_simp
  exact B_arg7 m c
theorem C_arg8 : VC m c (Proc.devRef .tc main_arg8) = (m ((c.tc : Thread nD τ).loc main_arg8)) := by
  unfold VC; dsimp only [opsC]; after_results_simp
  exact B_arg8 m c
theorem C_arg9 : VC m c (Proc.devRef .tc main_arg9) = (m ((c.tc : Thread nD τ).loc main_arg9)) := by
  unfold VC; dsimp only [opsC]; after_results_simp
  exact B_arg9 m c
theorem C_arg10 : VC m c (Proc.devRef .tc main_arg10) = (m ((c.tc : Thread nD τ).loc main_arg10)) := by
  unfold VC; dsimp only [opsC]; after_results_simp
  exact B_arg10 m c
theorem C_v1 : VC m c (Proc.devRef .tc main_v1) = Cert.ReferenceIdeal.Read.val_main_v1 (F := Ideal) (m ((c.tc : Thread nD τ).loc main_arg2)) := by
  unfold VC; dsimp only [opsC]; after_results_simp
  exact B_v1 m c
theorem C_v18 : VC m c (Proc.devRef .tc main_v18) = Cert.ReferenceIdeal.Read.val_main_v18 (F := Ideal) (m ((c.tc : Thread nD τ).loc main_arg1)) (m ((c.tc : Thread nD τ).loc main_arg2)) := by
  unfold VC; dsimp only [opsC]; after_results_simp
  exact B_v18 m c
set_option maxHeartbeats 4000000 in
theorem C_v46 : VC m c (Proc.devRef .tc main_v46) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold VC; dsimp only [opsC]; after_results_simp
  rw [B_v41, B_arg5, B_arg6]
  try rfl

/-! ### After the fourth stretch: the second result -/
theorem D_arg0 : VD m c (Proc.devRef .tc main_arg0) = (m ((c.tc : Thread nD τ).loc main_arg0)) := by
  unfold VD; dsimp only [opsD]; after_results_simp
  exact C_arg0 m c
theorem D_arg7 : VD m c (Proc.devRef .tc main_arg7) = (m ((c.tc : Thread nD τ).loc main_arg7)) := by
  unfold VD; dsimp only [opsD]; after_results_simp
  exact C_arg7 m c
theorem D_arg8 : VD m c (Proc.devRef .tc main_arg8) = (m ((c.tc : Thread nD τ).loc main_arg8)) := by
  unfold VD; dsimp only [opsD]; after_results_simp
  exact C_arg8 m c
theorem D_v1 : VD m c (Proc.devRef .tc main_v1) = Cert.ReferenceIdeal.Read.val_main_v1 (F := Ideal) (m ((c.tc : Thread nD τ).loc main_arg2)) := by
  unfold VD; dsimp only [opsD]; after_results_simp
  exact C_v1 m c
theorem D_v46 : VD m c (Proc.devRef .tc main_v46) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold VD; dsimp only [opsD]; after_results_simp
  exact C_v46 m c
set_option maxHeartbeats 4000000 in
theorem D_v57 : VD m c (Proc.devRef .tc main_v57) = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  unfold VD; dsimp only [opsD]; after_results_simp
  rw [C_v46, C_v1, C_v18, C_arg1, C_arg9, C_arg10]
  try rfl

/-! ### After the fifth stretch: the messages added up per source node -/
theorem E_arg0 : VE m c (Proc.devRef .tc main_arg0) = (m ((c.tc : Thread nD τ).loc main_arg0)) := by
  unfold VE; dsimp only [opsE]; after_results_simp
  exact D_arg0 m c
theorem E_arg7 : VE m c (Proc.devRef .tc main_arg7) = (m ((c.tc : Thread nD τ).loc main_arg7)) := by
  unfold VE; dsimp only [opsE]; after_results_simp
  exact D_arg7 m c
theorem E_arg8 : VE m c (Proc.devRef .tc main_arg8) = (m ((c.tc : Thread nD τ).loc main_arg8)) := by
  unfold VE; dsimp only [opsE]; after_results_simp
  exact D_arg8 m c
theorem E_v57 : VE m c (Proc.devRef .tc main_v57) = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  unfold VE; dsimp only [opsE]; after_results_simp
  exact D_v57 m c
set_option maxHeartbeats 4000000 in
theorem E_v60 : VE m c (Proc.devRef .tc main_v60) = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold VE; dsimp only [opsE]; after_results_simp
  rw [D_v46, D_v1]
  try rfl

/-! ### After the last stretch: the first result -/
theorem G_v57 : VG m c (Proc.devRef .tc main_v57) = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  unfold VG; dsimp only [opsG]; after_results_simp
  exact E_v57 m c
set_option maxHeartbeats 4000000 in
theorem G_v66 : VG m c (Proc.devRef .tc main_v66) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold VG; dsimp only [opsG]; after_results_simp
  rw [E_v60, E_arg0, E_arg7, E_arg8]
  try rfl

end Cert.ReferenceIdeal.Stage

namespace Cert.ReferenceIdeal.HandRun

open Cert.ReferenceIdeal Cert.ReferenceIdeal.Gen Cert.ReferenceIdeal.Value Idealize.ShloMosaic Idealize.ShloMosaic.TcCoe Idealize.SL.Sem Idealize.ShloMosaic.StableHlo

set_option maxRecDepth 8192 in
set_option maxHeartbeats 8000000 in
/-- On every device, from any memory with zero counters: every weakly fair execution of the reference terminates with the first
    result at the node layer's term of the arguments, the second at the positions plus the aggregated updates, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v57) = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v66).trans (by rw [Stage.after_ops]; exact Stage.G_v66 m c),
      (h c main_v57).trans (by rw [Stage.after_ops]; exact Stage.G_v57 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.HandRun

end
-- ==== Proof.KernelRun.lean ====
/-
  The idealized kernel's run with every buffer named at the end.

  The program is four stretches in a row: host operations, the edge kernel's grid, host operations, the node kernel's
  grid.  The contents of every buffer at each boundary are a fold from the launch memory: a host stretch applies its
  operations' pure functions, a grid leaves in each of its output arrays what its points wrote back and every other buffer
  as it found it.  Here the run is stated with its post-condition at full strength: when the program ends, EVERY unscoped
  buffer of the TensorCore holds the last boundary's contents.  The two results and the unchanged arguments are read
  off that single statement later.
-/
import proofs.«109307_j16587163698061_2_alg».proof.Proof.Gen.KernelIdeal.Frame

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every unscoped
    buffer `b` of core `c` holds the last boundary's contents `W4 m ρ c b`. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- A buffer that lives for the whole program is among those the final statement speaks of. -/
theorem mem_uc (b : Ref sig .tc) (h : ¬ (Proc.devRef .tc b : DevRef τ sig).isScoped) : Proc.devRef .tc b ∈ Pipeline.ucRefs τ sig :=
  Gen.mem_uc b h

end Cert.KernelIdeal.RunVal

end
-- ==== Proof.Spec.lean ====
/-
  One message-passing layer on a graph, row by row, over the extended reals.

  For an edge `e` with gathered endpoint features `xr, xc : Fin 128 → EReal` and relative position `rl : Fin 3 → EReal`:
    squared length     d      = Σ_c rl c · rl c
    hidden unit j      h j    = silu ((Σ_k xr k · A k j + Σ_k xc k · B k j) + d · w j + b1 j)
    message unit j     m j    = silu (Σ_k h k · W2 k j + b2 j)
    gate               g      = tanh (Σ_k m k · wc k + bc)
    position update c  u c    = rl c · g
  with `silu x = x · 1/(1 + e^(-x))`.  For a node with features `x` and aggregated messages `ag`:
    output unit j      o j    = silu ((Σ_k x k · Na k j + Σ_k ag k · Nb k j) + bn j).
  The weight matrices enter as the 128-row pieces the rows `0..127`, `128..255` (and row `256`) of the stacked weights;
  the one law used to meet the stacked form is that a sum over `a + b` (or `a + b + c`) indices is the sum of the sums over
  the pieces — commutativity and associativity of `+` only, which hold on all of `EReal`.
-/
import Idealize.ShloMosaic.PureOps.Ideal
import Idealize.ShloMosaic.Lib.ValueIdx
import Mathlib.Algebra.BigOperators.Fin

noncomputable section

open Idealize.ShloMosaic Idealize.ShloMosaic.ValueIdx
open scoped BigOperators

namespace Cert.Spec

/-! ## Splitting a finite sum into consecutive pieces -/

/-- A sum over `n = a + b` indices is the sum over the first `a` plus the sum over the last `b`. -/
theorem sum_two {M : Type*} [AddCommMonoid M] (a b n : ℕ) (h : a + b = n) (f : Fin n → M) :
    ∑ k : Fin n, f k = (∑ k : Fin a, f ⟨k.val, by omega⟩) + (∑ k : Fin b, f ⟨a + k.val, by omega⟩) := by
  subst h
  rw [Fin.sum_univ_add]
  rfl

/-- A sum over `n = a + b + c` indices as the three consecutive pieces. -/
theorem sum_three {M : Type*} [AddCommMonoid M] (a b c n : ℕ) (h : a + b + c = n) (f : Fin n → M) :
    ∑ k : Fin n, f k = ((∑ k : Fin a, f ⟨k.val, by omega⟩) + (∑ k : Fin b, f ⟨a + k.val, by omega⟩))
      + (∑ k : Fin c, f ⟨a + b + k.val, by omega⟩) := by
  rw [sum_two (a + b) c n h f, sum_two a b (a + b) rfl (fun k => f ⟨k.val, by omega⟩)]

/-! ## The layer, row by row -/

abbrev M128 : Shape := ⟨2, ![128, 128]⟩
abbrev R128 : Shape := ⟨2, ![1, 128]⟩
abbrev C128 : Shape := ⟨2, ![128, 1]⟩
abbrev U11 : Shape := ⟨2, ![1, 1]⟩

/-- `silu x = x · 1/(1 + e^(-x))`. -/
def silu (x : EReal) : EReal := x * Ideal.logistic x

/-- The squared length of a relative position. -/
def dist2 (rl : Fin 3 → EReal) : EReal := ∑ c : Fin 3, rl c * rl c

/-- Hidden unit `j` of an edge. -/
def hid (A B : M128.Idx → EReal) (w b1 : R128.Idx → EReal) (xr xc : Fin 128 → EReal) (rl : Fin 3 → EReal) (j : Fin 128) : EReal :=
  silu ((((∑ k : Fin 128, xr k * A (ix2 k j)) + (∑ k : Fin 128, xc k * B (ix2 k j))) + dist2 rl * w (ix2 0 j)) + b1 (ix2 0 j))

/-- Message unit `j` of an edge. -/
def msg (A B : M128.Idx → EReal) (w b1 : R128.Idx → EReal) (W2 : M128.Idx → EReal) (b2 : R128.Idx → EReal)
    (xr xc : Fin 128 → EReal) (rl : Fin 3 → EReal) (j : Fin 128) : EReal :=
  silu ((∑ k : Fin 128, hid A B w b1 xr xc rl k * W2 (ix2 k j)) + b2 (ix2 0 j))

/-- The gate of an edge's position update. -/
def gate (A B : M128.Idx → EReal) (w b1 : R128.Idx → EReal) (W2 : M128.Idx → EReal) (b2 : R128.Idx → EReal)
    (wc : C128.Idx → EReal) (bc : U11.Idx → EReal) (xr xc : Fin 128 → EReal) (rl : Fin 3 → EReal) : EReal :=
  Ideal.tanh ((∑ k : Fin 128, msg A B w b1 W2 b2 xr xc rl k * wc (ix2 k 0)) + bc (ix2 0 0))

/-- Output unit `j` of a node. -/
def nodeOut (Na Nb : M128.Idx → EReal) (bn : R128.Idx → EReal) (x ag : Fin 128 → EReal) (j : Fin 128) : EReal :=
  silu (((∑ k : Fin 128, x k * Na (ix2 k j)) + (∑ k : Fin 128, ag k * Nb (ix2 k j))) + bn (ix2 0 j))

/-! ## The layer on whole arrays -/

abbrev E128 : Shape := ⟨2, ![640000, 128]⟩
abbrev E3 : Shape := ⟨2, ![640000, 3]⟩
abbrev N128 : Shape := ⟨2, ![20000, 128]⟩

/-- Every edge's message, as one array. -/
def msgArr (xr xc : E128.Idx → EReal) (rl : E3.Idx → EReal) (A B : M128.Idx → EReal) (w b1 : R128.Idx → EReal)
    (W2 : M128.Idx → EReal) (b2 : R128.Idx → EReal) : E128.Idx → EReal := fun i =>
  msg A B w b1 W2 b2 (fun k => xr (ix2 (i 0) k)) (fun k => xc (ix2 (i 0) k)) (fun c => rl (ix2 (i 0) c)) (i 1)

/-- Every edge's position update, as one array. -/
def updArr (xr xc : E128.Idx → EReal) (rl : E3.Idx → EReal) (A B : M128.Idx → EReal) (w b1 : R128.Idx → EReal)
    (W2 : M128.Idx → EReal) (b2 : R128.Idx → EReal) (wc : C128.Idx → EReal) (bc : U11.Idx → EReal) : E3.Idx → EReal := fun i =>
  rl i * gate A B w b1 W2 b2 wc bc (fun k => xr (ix2 (i 0) k)) (fun k => xc (ix2 (i 0) k)) (fun c => rl (ix2 (i 0) c))

/-- Every node's output, as one array. -/
def outArr (x ag : N128.Idx → EReal) (Na Nb : M128.Idx → EReal) (bn : R128.Idx → EReal) : N128.Idx → EReal := fun i =>
  nodeOut Na Nb bn (fun k => x (ix2 (i 0) k)) (fun k => ag (ix2 (i 0) k)) (i 1)

end Cert.Spec

end
-- ==== Proof.KerRows.lean ====
/-
  The two kernels' arithmetic, read one row at a time.

  Each kernel body is one pure term of the blocks it loads.  Read at row `p` of the block (and column `j`) at the exact-real
  reading of floats it is the layer's row formula of that row of the loaded blocks: a matrix product into a zero
  accumulator is the sum over the contracted index, a lane reduction from `0` the sum over the lanes, a change of float
  format the identity, a broadcast a re-reading of its operand.
-/
import proofs.«109307_j16587163698061_2_alg».proof.Proof.Gen.KernelIdeal.Skeleton
import proofs.«109307_j16587163698061_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rows

open Idealize.ShloMosaic Idealize.ShloMosaic.ValueIdx Cert.KernelIdeal Cert.KernelIdeal.Gen
open scoped BigOperators

/-! ## The three matrix products -/

theorem mm_edge_l0 (i : S5120x128.Idx) (q : dot_S5120x128_S128x128_S5120x128_1_0_0_1_n_n.contr.Idx) : (dot_S5120x128_S128x128_S5120x128_1_0_0_1_n_n.lhsIdx i q 0).val = (i 0).val := by
  unfold DotDims.lhsIdx
  rw [dif_neg (show ¬(0 : Fin S5120x128.rank) ∈ dot_S5120x128_S128x128_S5120x128_1_0_0_1_n_n.lhsBatch by decide), dif_pos (show (0 : Fin S5120x128.rank) ∈ dot_S5120x128_S128x128_S5120x128_1_0_0_1_n_n.lhsNonContracting by decide)]
  rfl
theorem mm_edge_r1 (i : S5120x128.Idx) (q : dot_S5120x128_S128x128_S5120x128_1_0_0_1_n_n.contr.Idx) : (dot_S5120x128_S128x128_S5120x128_1_0_0_1_n_n.rhsIdx i q 1).val = (i 1).val := by
  unfold DotDims.rhsIdx
  rw [dif_neg (show ¬(1 : Fin S128x128.rank) ∈ dot_S5120x128_S128x128_S5120x128_1_0_0_1_n_n.rhsBatch by decide), dif_pos (show (1 : Fin S128x128.rank) ∈ dot_S5120x128_S128x128_S5120x128_1_0_0_1_n_n.rhsNonContracting by decide)]
  rfl

/-- A product into a zero accumulator, read at row `p`, column `j`: the sum over the contracted index. -/
theorem mm_edge {φ₁ φ₂ : FTy} (l : FVec Ideal S5120x128 φ₁) (r : FVec Ideal S128x128 φ₂) (p : Fin 5120) (j : Fin 128) :
    matmul dot_S5120x128_S128x128_S5120x128_1_0_0_1_n_n none l r (constant (F := Ideal) S5120x128 .f32 0x00000000#32) (ix2 p j) = ∑ k : Fin 128, l (ix2 p k) * r (ix2 k j) := by
  refine (Ideal.matmul_constant_zero_apply dot_S5120x128_S128x128_S5120x128_1_0_0_1_n_n none l r (ix2 p j)).trans ?_
  rw [← Equiv.sum_comp (ValueIdx.contrEquiv1 dot_S5120x128_S128x128_S5120x128_1_0_0_1_n_n 128 rfl rfl).symm]
  refine Finset.sum_congr rfl fun k _ => ?_
  have hk := ValueIdx.contrEquiv1_symm_val dot_S5120x128_S128x128_S5120x128_1_0_0_1_n_n 128 rfl rfl k
  have el : dot_S5120x128_S128x128_S5120x128_1_0_0_1_n_n.lhsIdx (ix2 p j) ((ValueIdx.contrEquiv1 dot_S5120x128_S128x128_S5120x128_1_0_0_1_n_n 128 rfl rfl).symm k) = ix2 p k := funext fun a => Fin.ext (by
    match a with
    | ⟨0, _⟩ => exact mm_edge_l0 _ _
    | ⟨1, _⟩ => exact (dot_S5120x128_S128x128_S5120x128_1_0_0_1_n_n.lhsIdx_val_of_single rfl _ _).trans hk)
  have er : dot_S5120x128_S128x128_S5120x128_1_0_0_1_n_n.rhsIdx (ix2 p j) ((ValueIdx.contrEquiv1 dot_S5120x128_S128x128_S5120x128_1_0_0_1_n_n 128 rfl rfl).symm k) = ix2 k j := funext fun a => Fin.ext (by
    match a with
    | ⟨0, _⟩ => exact (dot_S5120x128_S128x128_S5120x128_1_0_0_1_n_n.rhsIdx_val_of_single rfl _ _).trans hk
    | ⟨1, _⟩ => exact mm_edge_r1 _ _)
  rw [el, er]

theorem mm_gate_l0 (i : S5120x1.Idx) (q : dot_S5120x128_S128x1_S5120x1_1_0_0_1_n_n.contr.Idx) : (dot_S5120x128_S128x1_S5120x1_1_0_0_1_n_n.lhsIdx i q 0).val = (i 0).val := by
  unfold DotDims.lhsIdx
  rw [dif_neg (show ¬(0 : Fin S5120x128.rank) ∈ dot_S5120x128_S128x1_S5120x1_1_0_0_1_n_n.lhsBatch by decide), dif_pos (show (0 : Fin S5120x128.rank) ∈ dot_S5120x128_S128x1_S5120x1_1_0_0_1_n_n.lhsNonContracting by decide)]
  rfl
theorem mm_gate_r1 (i : S5120x1.Idx) (q : dot_S5120x128_S128x1_S5120x1_1_0_0_1_n_n.contr.Idx) : (dot_S5120x128_S128x1_S5120x1_1_0_0_1_n_n.rhsIdx i q 1).val = (i 1).val := by
  unfold DotDims.rhsIdx
  rw [dif_neg (show ¬(1 : Fin S128x1.rank) ∈ dot_S5120x128_S128x1_S5120x1_1_0_0_1_n_n.rhsBatch by decide), dif_pos (show (1 : Fin S128x1.rank) ∈ dot_S5120x128_S128x1_S5120x1_1_0_0_1_n_n.rhsNonContracting by decide)]
  rfl

/-- A product into a zero accumulator, read at row `p`, column `j`: the sum over the contracted index. -/
theorem mm_gate {φ₁ φ₂ : FTy} (l : FVec Ideal S5120x128 φ₁) (r : FVec Ideal S128x1 φ₂) (p : Fin 5120) (j : Fin 1) :
    matmul dot_S5120x128_S128x1_S5120x1_1_0_0_1_n_n none l r (constant (F := Ideal) S5120x1 .f32 0x00000000#32) (ix2 p j) = ∑ k : Fin 128, l (ix2 p k) * r (ix2 k j) := by
  refine (Ideal.matmul_constant_zero_apply dot_S5120x128_S128x1_S5120x1_1_0_0_1_n_n none l r (ix2 p j)).trans ?_
  rw [← Equiv.sum_comp (ValueIdx.contrEquiv1 dot_S5120x128_S128x1_S5120x1_1_0_0_1_n_n 128 rfl rfl).symm]
  refine Finset.sum_congr rfl fun k _ => ?_
  have hk := ValueIdx.contrEquiv1_symm_val dot_S5120x128_S128x1_S5120x1_1_0_0_1_n_n 128 rfl rfl k
  have el : dot_S5120x128_S128x1_S5120x1_1_0_0_1_n_n.lhsIdx (ix2 p j) ((ValueIdx.contrEquiv1 dot_S5120x128_S128x1_S5120x1_1_0_0_1_n_n 128 rfl rfl).symm k) = ix2 p k := funext fun a => Fin.ext (by
    match a with
    | ⟨0, _⟩ => exact mm_gate_l0 _ _
    | ⟨1, _⟩ => exact (dot_S5120x128_S128x1_S5120x1_1_0_0_1_n_n.lhsIdx_val_of_single rfl _ _).trans hk)
  have er : dot_S5120x128_S128x1_S5120x1_1_0_0_1_n_n.rhsIdx (ix2 p j) ((ValueIdx.contrEquiv1 dot_S5120x128_S128x1_S5120x1_1_0_0_1_n_n 128 rfl rfl).symm k) = ix2 k j := funext fun a => Fin.ext (by
    match a with
    | ⟨0, _⟩ => exact (dot_S5120x128_S128x1_S5120x1_1_0_0_1_n_n.rhsIdx_val_of_single rfl _ _).trans hk
    | ⟨1, _⟩ => exact mm_gate_r1 _ _)
  rw [el, er]

theorem mm_node_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm_node_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product into a zero accumulator, read at row `p`, column `j`: the sum over the contracted index. -/
theorem mm_node {φ₁ φ₂ : FTy} (l : FVec Ideal S2000x128 φ₁) (r : FVec Ideal S128x128 φ₂) (p : Fin 2000) (j : Fin 128) :
    matmul dot_S2000x128_S128x128_S2000x128_1_0_0_1_n_n none l r (constant (F := Ideal) S2000x128 .f32 0x00000000#32) (ix2 p j) = ∑ k : Fin 128, l (ix2 p k) * r (ix2 k j) := by
  refine (Ideal.matmul_constant_zero_apply dot_S2000x128_S128x128_S2000x128_1_0_0_1_n_n none l r (ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact mm_node_l0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (dot_S2000x128_S128x128_S2000x128_1_0_0_1_n_n.rhsIdx_val_of_single rfl _ _).trans hk
    | ⟨1, _⟩ => exact mm_node_r1 _ _)
  rw [el, er]

/-! ## Broadcasts, casts, the lane sum -/

/-- A one-column matrix broadcast along `b` columns, read at `(p, c)`: the column's entry `p`. -/
theorem bcast_col {a b : ℕ} (v : (⟨2, ![a, 1]⟩ : Shape).Idx → EReal) (h : (⟨2, ![a, 1]⟩ : Shape).Broadcasts ⟨2, ![a, b]⟩)
    (p : Fin a) (c : Fin b) : broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries cast to one column, read at `(i, 0)`: entry `i`. -/
theorem cast_col {a : ℕ} (x : (⟨1, ![a]⟩ : Shape).Idx → EReal) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the three lanes of row `p`. -/
theorem lane_sum (src : FVec Ideal S5120x3 .f32) (hφ : FKind.Formats .f32)
    (hacc : (0x00000000#32 : BitVec 32) = 0x00000000#32) (p : Fin 5120) :
    multiReduction .add [1] S5120 src 0x00000000#32 reduces_S5120x3_S5120 hφ hacc (ix1 p) = ∑ c : Fin 3, src (ix2 p c) := by
  refine (Ideal.multiReduction_add_single src 0x00000000#32 reduces_S5120x3_S5120 hφ hacc (ix1 p)).trans ?_
  show ∑ c : Fin 3, src (reduces_S5120x3_S5120.lift (ix1 p) c) = _
  refine Finset.sum_congr rfl fun k _ => congrArg src ?_
  funext c; apply Fin.ext; fin_cases c <;> rfl

/-- `silu` of a vector, lane by lane. -/
theorem silu_at {s : Shape} (v : FVec Ideal s .f32) (i : s.Idx) : mulf v (logistic v) i = Spec.silu (v i) := rfl

/-! ## The edge kernel's rows -/

/-- The second layer's pre-activation at `(p, j)`: the hidden units of row `p` against column `j` of the weights, plus the bias. -/
theorem pre_row (v0 v2 : FVec Ideal S5120x128 .bf16) (v4 : FVec Ideal S5120x3 .f32) (v9 v11 : FVec Ideal S128x128 .bf16)
    (v13 v15 : FVec Ideal S1x128 .f32) (v29 : FVec Ideal S128x128 .bf16) (v31 : FVec Ideal S1x128 .f32) (p : Fin 5120) (j : Fin 128) :
    k0_pay4 (F := Ideal) v0 v2 v4 v9 v11 v13 v15 v29 v31 (ix2 p j)
      = (∑ k : Fin 128, Spec.hid v9 v11 v13 v15 (fun k => v0 (ix2 p k)) (fun k => v2 (ix2 p k)) (fun c => v4 (ix2 p c)) k * v29 (ix2 k j))
        + v31 (ix2 0 j) := by
  unfold k0_pay4 k0_pay3
  simp only [shapeCast_self]
  rw [ValueIdx.addf_apply, mm_edge, broadcastTo_1b_ab_apply]
  refine congrArg (· + _) (Finset.sum_congr rfl fun k _ => congrArg (· * _) ?_)
  rw [ValueIdx.truncf_apply, silu_at]
  unfold Spec.hid Spec.dist2
  refine congrArg Spec.silu ?_
  rw [ValueIdx.addf_apply, ValueIdx.addf_apply, ValueIdx.addf_apply, ValueIdx.mulf_apply, mm_edge, mm_edge,
    broadcastTo_1b_ab_apply, broadcastTo_1b_ab_apply, bcast_col, cast_col, lane_sum]
  rfl

/-- The message at `(p, j)`. -/
theorem msg_row (v0 v2 : FVec Ideal S5120x128 .bf16) (v4 : FVec Ideal S5120x3 .f32) (v9 v11 : FVec Ideal S128x128 .bf16)
    (v13 v15 : FVec Ideal S1x128 .f32) (v29 : FVec Ideal S128x128 .bf16) (v31 : FVec Ideal S1x128 .f32) (p : Fin 5120) (j : Fin 128) :
    k0_pay1 (F := Ideal) (k0_pay4 v0 v2 v4 v9 v11 v13 v15 v29 v31) (k0_pay5 v0 v2 v4 v9 v11 v13 v15 v29 v31) (ix2 p j)
      = Spec.msg v9 v11 v13 v15 v29 v31 (fun k => v0 (ix2 p k)) (fun k => v2 (ix2 p k)) (fun c => v4 (ix2 p c)) j := by
  unfold k0_pay1 k0_pay5 Spec.msg
  rw [silu_at, pre_row]

/-- The position update at `(p, c)`: the relative position's entry times the gate of the row's message. -/
theorem upd_row (v0 v2 : FVec Ideal S5120x128 .bf16) (v4 : FVec Ideal S5120x3 .f32) (v9 v11 : FVec Ideal S128x128 .bf16)
    (v13 v15 : FVec Ideal S1x128 .f32) (v29 : FVec Ideal S128x128 .bf16) (v31 : FVec Ideal S1x128 .f32)
    (v40 : FVec Ideal S128x1 .bf16) (v42 : FVec Ideal S1x1 .f32) (p : Fin 5120) (c : Fin 3) :
    k0_pay2 (F := Ideal) (k0_pay3 v4) (k0_pay4 v0 v2 v4 v9 v11 v13 v15 v29 v31) (k0_pay5 v0 v2 v4 v9 v11 v13 v15 v29 v31) v40 v42 (ix2 p c)
      = v4 (ix2 p c) * Spec.gate v9 v11 v13 v15 v29 v31 v40 v42 (fun k => v0 (ix2 p k)) (fun k => v2 (ix2 p k)) (fun c => v4 (ix2 p c)) := by
  unfold k0_pay2 k0_pay3 Spec.gate
  simp only [shapeCast_self]
  rw [ValueIdx.mulf_apply, bcast_col]
  refine congrArg (_ * ·) ?_
  show Ideal.tanh _ = _
  refine congrArg Ideal.tanh ?_
  rw [ValueIdx.addf_apply, mm_gate, broadcastTo_1b_ab_apply]
  refine congrArg (· + _) (Finset.sum_congr rfl fun k _ => congrArg (· * _) ?_)
  rw [ValueIdx.truncf_apply]
  exact msg_row v0 v2 v4 v9 v11 v13 v15 v29 v31 p k

/-! ## The node kernel's row -/

theorem node_row (v0 : FVec Ideal S2000x128 .bf16) (v2 : FVec Ideal S2000x128 .f32) (v5 v7 : FVec Ideal S128x128 .bf16)
    (v9 : FVec Ideal S1x128 .f32) (p : Fin 2000) (j : Fin 128) :
    k1_pay1 (F := Ideal) v0 v2 v5 v7 v9 (ix2 p j)
      = Spec.nodeOut v5 v7 v9 (fun k => v0 (ix2 p k)) (fun k => v2 (ix2 p k)) j := by
  unfold k1_pay1 Spec.nodeOut
  simp only [shapeCast_self]
  rw [silu_at]
  refine congrArg Spec.silu ?_
  rw [ValueIdx.addf_apply, ValueIdx.addf_apply, mm_node, mm_node, broadcastTo_1b_ab_apply]
  rfl

end Cert.KernelIdeal.Rows

end
-- ==== Proof.KerArrays.lean ====
/-
  From blocks to arrays: what each kernel's grid leaves in its output arrays.

  The edge kernel runs on 125 grid points; point `t` loads rows `5120·t … 5120·t + 5119` of the two gathered feature
  arrays and of the relative positions, the whole of every weight array, and writes back the same rows of the message
  array and of the position-update array.  The node kernel runs on 10 points of 2000 rows each.  Every row of an output
  array lies in exactly the block of the point `row / rows-per-block`, so the blocks cover the array, and the array after the
  grid is the layer's row formula at every index, as one function of the arrays the grid was entered with.
-/
import proofs.«109307_j16587163698061_2_alg».proof.Proof.Gen.KernelIdeal.Frame
import proofs.«109307_j16587163698061_2_alg».proof.Proof.KerRows
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The edge kernel's grid -/

/-- The printed index maps, decided over the 125 points: a row window's block index is `(t, 0)`, a weight window's `(0, 0)`. -/
theorem idx0 : ∀ t : Fin cfg0.N, t.val < 125
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Row `p` of point `t`'s block is row `5120·t + p` of the array. -/
def erow (t : Fin cfg0.N) (p : Fin 5120) : Fin 640000 := ⟨t.val * 5120 + p.val, by have := (idx0 t).1; have := p.isLt; omega⟩

/-- Window 0's block at point `t`, read at `(p, k)`: the array's entry `(5120·t + p, k)`. -/
theorem rows0_0 (c : Dev nD) (t : Fin cfg0.N) (p : Fin 5120) (k : Fin 128) :
    iblk0 V c 0 t (ix2 p k) = V c main_v26 (ix2 (erow t p) k) := by
  show V c main_v26 (((cfg0.win 0).blk t).view.emb (ix2 p k)) = _
  refine congrArg (V c main_v26) (funext fun a => Fin.ext ?_)
  have e := idx0 t
  match a with
  | ⟨0, _⟩ => show win0_0.index t (0 : Fin 2) * 5120 + 1 * p.val = t.val * 5120 + p.val; omega
  | ⟨1, _⟩ => show win0_0.index t (1 : Fin 2) * 128 + 1 * k.val = k.val; omega
/-- Window 1's block at point `t`, read at `(p, k)`: the array's entry `(5120·t + p, k)`. -/
theorem rows0_1 (c : Dev nD) (t : Fin cfg0.N) (p : Fin 5120) (k : Fin 128) :
    iblk0 V c 1 t (ix2 p k) = V c main_v33 (ix2 (erow t p) k) := by
  show V c main_v33 (((cfg0.win 1).blk t).view.emb (ix2 p k)) = _
  refine congrArg (V c main_v33) (funext fun a => Fin.ext ?_)
  have e := idx0 t
  match a with
  | ⟨0, _⟩ => show win0_1.index t (0 : Fin 2) * 5120 + 1 * p.val = t.val * 5120 + p.val; omega
  | ⟨1, _⟩ => show win0_1.index t (1 : Fin 2) * 128 + 1 * k.val = k.val; omega
/-- Window 2's block at point `t`, read at `(p, k)`: the array's entry `(5120·t + p, k)`. -/
theorem rows0_2 (c : Dev nD) (t : Fin cfg0.N) (p : Fin 5120) (k : Fin 3) :
    iblk0 V c 2 t (ix2 p k) = V c main_v18 (ix2 (erow t p) k) := by
  show V c main_v18 (((cfg0.win 2).blk t).view.emb (ix2 p k)) = _
  refine congrArg (V c main_v18) (funext fun a => Fin.ext ?_)
  have e := idx0 t
  match a with
  | ⟨0, _⟩ => show win0_2.index t (0 : Fin 2) * 5120 + 1 * p.val = t.val * 5120 + p.val; omega
  | ⟨1, _⟩ => show win0_2.index t (1 : Fin 2) * 3 + 1 * k.val = k.val; omega

/-- Window 3's block at every point is the whole array. -/
theorem whole0_3 (c : Dev nD) (t : Fin cfg0.N) : iblk0 V c 3 t = V c main_v35 := by
  funext y
  show V c main_v35 (((cfg0.win 3).blk t).view.emb y) = V c main_v35 y
  refine congrArg (V c main_v35) (funext fun a => Fin.ext ?_)
  have e := idx0 t
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's block at every point is the whole array. -/
theorem whole0_4 (c : Dev nD) (t : Fin cfg0.N) : iblk0 V c 4 t = V c main_v37 := by
  funext y
  show V c main_v37 (((cfg0.win 4).blk t).view.emb y) = V c main_v37 y
  refine congrArg (V c main_v37) (funext fun a => Fin.ext ?_)
  have e := idx0 t
  match a with
  | ⟨0, _⟩ => show win0_4.index t (0 : Fin 2) * 128 + 1 * (y 0).val = (y 0).val; omega
  | ⟨1, _⟩ => show win0_4.index t (1 : Fin 2) * 128 + 1 * (y 1).val = (y 1).val; omega
/-- Window 5's block at every point is the whole array. -/
theorem whole0_5 (c : Dev nD) (t : Fin cfg0.N) : iblk0 V c 5 t = V c main_v38 := by
  funext y
  show V c main_v38 (((cfg0.win 5).blk t).view.emb y) = V c main_v38 y
  refine congrArg (V c main_v38) (funext fun a => Fin.ext ?_)
  have e := idx0 t
  match a with
  | ⟨0, _⟩ => show win0_5.index t (0 : Fin 2) * 1 + 1 * (y 0).val = (y 0).val; omega
  | ⟨1, _⟩ => show win0_5.index t (1 : Fin 2) * 128 + 1 * (y 1).val = (y 1).val; omega
/-- Window 6's block at every point is the whole array. -/
theorem whole0_6 (c : Dev nD) (t : Fin cfg0.N) : iblk0 V c 6 t = V c main_v39 := by
  funext y
  show V c main_v39 (((cfg0.win 6).blk t).view.emb y) = V c main_v39 y
  refine congrArg (V c main_v39) (funext fun a => Fin.ext ?_)
  have e := idx0 t
  match a with
  | ⟨0, _⟩ => show win0_6.index t (0 : Fin 2) * 1 + 1 * (y 0).val = (y 0).val; omega
  | ⟨1, _⟩ => show win0_6.index t (1 : Fin 2) * 128 + 1 * (y 1).val = (y 1).val; omega
/-- Window 7's block at every point is the whole array. -/
theorem whole0_7 (c : Dev nD) (t : Fin cfg0.N) : iblk0 V c 7 t = V c main_v40 := by
  funext y
  show V c main_v40 (((cfg0.win 7).blk t).view.emb y) = V c main_v40 y
  refine congrArg (V c main_v40) (funext fun a => Fin.ext ?_)
  have e := idx0 t
  match a with
  | ⟨0, _⟩ => show win0_7.index t (0 : Fin 2) * 128 + 1 * (y 0).val = (y 0).val; omega
  | ⟨1, _⟩ => show win0_7.index t (1 : Fin 2) * 128 + 1 * (y 1).val = (y 1).val; omega
/-- Window 8's block at every point is the whole array. -/
theorem whole0_8 (c : Dev nD) (t : Fin cfg0.N) : iblk0 V c 8 t = V c main_v41 := by
  funext y
  show V c main_v41 (((cfg0.win 8).blk t).view.emb y) = V c main_v41 y
  refine congrArg (V c main_v41) (funext fun a => Fin.ext ?_)
  have e := idx0 t
  match a with
  | ⟨0, _⟩ => show win0_8.index t (0 : Fin 2) * 1 + 1 * (y 0).val = (y 0).val; omega
  | ⟨1, _⟩ => show win0_8.index t (1 : Fin 2) * 128 + 1 * (y 1).val = (y 1).val; omega
/-- Window 9's block at every point is the whole array. -/
theorem whole0_9 (c : Dev nD) (t : Fin cfg0.N) : iblk0 V c 9 t = V c main_v42 := by
  funext y
  show V c main_v42 (((cfg0.win 9).blk t).view.emb y) = V c main_v42 y
  refine congrArg (V c main_v42) (funext fun a => Fin.ext ?_)
  have e := idx0 t
  match a with
  | ⟨0, _⟩ => show win0_9.index t (0 : Fin 2) * 128 + 1 * (y 0).val = (y 0).val; omega
  | ⟨1, _⟩ => show win0_9.index t (1 : Fin 2) * 1 + 1 * (y 1).val = (y 1).val; omega
/-- Window 10's block at every point is the whole array. -/
theorem whole0_10 (c : Dev nD) (t : Fin cfg0.N) : iblk0 V c 10 t = V c main_v43 := by
  funext y
  show V c main_v43 (((cfg0.win 10).blk t).view.emb y) = V c main_v43 y
  refine congrArg (V c main_v43) (funext fun a => Fin.ext ?_)
  have e := idx0 t
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- Where entry `(p, k)` of output window 11's block at point `t` lies in the array. -/
theorem emb0_11 (t : Fin cfg0.N) (p : Fin 5120) (k : Fin 128) : ((cfg0.win 11).blk t).view.emb (ix2 p k) = ix2 (erow t p) k := by
  funext a; apply Fin.ext
  have e := idx0 t
  match a with
  | ⟨0, _⟩ => show win0_11.index t (0 : Fin 2) * 5120 + 1 * p.val = t.val * 5120 + p.val; omega
  | ⟨1, _⟩ => show win0_11.index t (1 : Fin 2) * 128 + 1 * k.val = k.val; omega
/-- Where entry `(p, k)` of output window 12's block at point `t` lies in the array. -/
theorem emb0_12 (t : Fin cfg0.N) (p : Fin 5120) (k : Fin 3) : ((cfg0.win 12).blk t).view.emb (ix2 p k) = ix2 (erow t p) k := by
  funext a; apply Fin.ext
  have e := idx0 t
  match a with
  | ⟨0, _⟩ => show win0_12.index t (0 : Fin 2) * 5120 + 1 * p.val = t.val * 5120 + p.val; omega
  | ⟨1, _⟩ => show win0_12.index t (1 : Fin 2) * 3 + 1 * k.val = k.val; omega

/-- The message array after the grid, as a function of the arrays the grid was entered with. -/
abbrev msgOf (c : Dev nD) : S640000x128.Idx → EReal :=
  Spec.msgArr (V c main_v26) (V c main_v33) (V c main_v18) (V c main_v35) (V c main_v37) (V c main_v38) (V c main_v39) (V c main_v40) (V c main_v41)

/-- The position-update array after the grid. -/
abbrev updOf (c : Dev nD) : S640000x3.Idx → EReal :=
  Spec.updArr (V c main_v26) (V c main_v33) (V c main_v18) (V c main_v35) (V c main_v37) (V c main_v38) (V c main_v39) (V c main_v40) (V c main_v41)
    (V c main_v42) (V c main_v43)

/-- What point `t` writes back to the message array is block `t` of the layer's messages. -/
theorem flushed0_11 (c : Dev nD) (t : Fin cfg0.N) :
    (dat0 V c).flushed 11 t = ((cfg0.win 11).blk t).view.read (Elt Ideal) (msgOf V c) := by
  show (cfg0.win 11).cut (grid0.coords t) ((dat0 V c).after 11 t) = _
  rw [after0_11]
  unfold out0_11
  rw [View.canon_unit_zero hz]
  simp only [View.ld_unit_zero (S := S5120x128) hz, View.ld_unit_zero (S := S5120x3) hz, View.ld_unit_zero (S := S128x128) hz,
    View.ld_unit_zero (S := S1x128) hz]
  funext y
  obtain ⟨p, j, rfl⟩ : ∃ (p : Fin 5120) (j : Fin 128), y = ix2 p j := ⟨y 0, y 1, eq_ix2 y⟩
  refine (Rows.msg_row (iblk0 V c 0 t) (iblk0 V c 1 t) (iblk0 V c 2 t) (iblk0 V c 3 t) (iblk0 V c 4 t) (iblk0 V c 5 t) (iblk0 V c 6 t)
    (iblk0 V c 7 t) (iblk0 V c 8 t) p j).trans ?_
  show _ = msgOf V c (((cfg0.win 11).blk t).view.emb (ix2 p j))
  rw [emb0_11, whole0_3, whole0_4, whole0_5, whole0_6, whole0_7, whole0_8]
  simp only [rows0_0, rows0_1, rows0_2]
  rfl

/-- What point `t` writes back to the position-update array is block `t` of the layer's updates. -/
theorem flushed0_12 (c : Dev nD) (t : Fin cfg0.N) :
    (dat0 V c).flushed 12 t = ((cfg0.win 12).blk t).view.read (Elt Ideal) (updOf V c) := by
  show (cfg0.win 12).cut (grid0.coords t) ((dat0 V c).after 12 t) = _
  rw [after0_12]
  unfold out0_12
  rw [View.canon_unit_zero hz]
  simp only [View.ld_unit_zero (S := S5120x128) hz, View.ld_unit_zero (S := S5120x3) hz, View.ld_unit_zero (S := S128x128) hz,
    View.ld_unit_zero (S := S1x128) hz, View.ld_unit_zero (S := S128x1) hz, View.ld_unit_zero (S := S1x1) hz]
  funext y
  obtain ⟨p, k, rfl⟩ : ∃ (p : Fin 5120) (k : Fin 3), y = ix2 p k := ⟨y 0, y 1, eq_ix2 y⟩
  refine (Rows.upd_row (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) p k).trans ?_
  show _ = updOf V c (((cfg0.win 12).blk t).view.emb (ix2 p k))
  rw [emb0_12, whole0_3, whole0_4, whole0_5, whole0_6, whole0_7, whole0_8, whole0_9, whole0_10]
  simp only [rows0_0, rows0_1, rows0_2]
  rfl

/-- An index of the array is in point `t`'s block of output window 11 iff each coordinate is in the block's range. -/
theorem mem_blk0_11 (t : Fin cfg0.N) (i : S640000x128.Idx) :
    i ∈ ((cfg0.win 11).blk t).view.set ↔ ∀ a : Fin 2, win0_11.index t a * S5120x128.size a ≤ (i a).val ∧ (i a).val < win0_11.index t a * S5120x128.size a + S5120x128.size a := by
  show i ∈ ((View.whole main_v44_0).slice (win0_11.rect t)).set ↔ _
  rw [View.set_slice_whole, Rect.mem_set_unit]
  exact Iff.rfl

/-- Every index of output window 11's array lies in the block of the point `row / 5120`. -/
theorem cover0_11 (i : S640000x128.Idx) : ∃ t : Fin cfg0.N, (cfg0.win 11).flush t = true ∧ i ∈ ((cfg0.win 11).blk t).view.set := by
  have hi0 : (i 0).val < 640000 := (i 0).isLt
  have hi1 : (i 1).val < 128 := (i 1).isLt
  let t : Fin cfg0.N := ⟨(i 0).val / 5120, by show (i 0).val / 5120 < grid0.N; rw [N_0]; omega⟩
  have e := idx0 t
  have htv : t.val = (i 0).val / 5120 := rfl
  refine ⟨t, flush0_11 t, ?_⟩
  rw [mem_blk0_11]
  intro a
  match a with
  | ⟨0, _⟩ => show win0_11.index t (0 : Fin 2) * 5120 ≤ (i 0).val ∧ (i 0).val < win0_11.index t (0 : Fin 2) * 5120 + 5120; omega
  | ⟨1, _⟩ => show win0_11.index t (1 : Fin 2) * 128 ≤ (i 1).val ∧ (i 1).val < win0_11.index t (1 : Fin 2) * 128 + 128; omega

/-- An index of the array is in point `t`'s block of output window 12 iff each coordinate is in the block's range. -/
theorem mem_blk0_12 (t : Fin cfg0.N) (i : S640000x3.Idx) :
    i ∈ ((cfg0.win 12).blk t).view.set ↔ ∀ a : Fin 2, win0_12.index t a * S5120x3.size a ≤ (i a).val ∧ (i a).val < win0_12.index t a * S5120x3.size a + S5120x3.size a := by
  show i ∈ ((View.whole main_v44_1).slice (win0_12.rect t)).set ↔ _
  rw [View.set_slice_whole, Rect.mem_set_unit]
  exact Iff.rfl

/-- Every index of output window 12's array lies in the block of the point `row / 5120`. -/
theorem cover0_12 (i : S640000x3.Idx) : ∃ t : Fin cfg0.N, (cfg0.win 12).flush t = true ∧ i ∈ ((cfg0.win 12).blk t).view.set := by
  have hi0 : (i 0).val < 640000 := (i 0).isLt
  have hi1 : (i 1).val < 3 := (i 1).isLt
  let t : Fin cfg0.N := ⟨(i 0).val / 5120, by show (i 0).val / 5120 < grid0.N; rw [N_0]; omega⟩
  have e := idx0 t
  have htv : t.val = (i 0).val / 5120 := rfl
  refine ⟨t, flush0_12 t, ?_⟩
  rw [mem_blk0_12]
  intro a
  match a with
  | ⟨0, _⟩ => show win0_12.index t (0 : Fin 2) * 5120 ≤ (i 0).val ∧ (i 0).val < win0_12.index t (0 : Fin 2) * 5120 + 5120; omega
  | ⟨1, _⟩ => show win0_12.index t (1 : Fin 2) * 3 ≤ (i 1).val ∧ (i 1).val < win0_12.index t (1 : Fin 2) * 3 + 3; omega

/-- THE MESSAGE ARRAY after the edge kernel's grid. -/
theorem final0_11 (c : Dev nD) : (dat0 V c).arrAt 11 cfg0.N = msgOf V c :=
  (dat0 V c).arrAt_eq_of_cover 11 (msgOf V c) (fun t _ => flushed0_11 V c t) cover0_11

/-- THE POSITION-UPDATE ARRAY after the edge kernel's grid. -/
theorem final0_12 (c : Dev nD) : (dat0 V c).arrAt 12 cfg0.N = updOf V c :=
  (dat0 V c).arrAt_eq_of_cover 12 (updOf V c) (fun t _ => flushed0_12 V c t) cover0_12

/-! ## The node kernel's grid -/

/-- The printed index maps, decided over the 10 points. -/
theorem idx1 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `2000·t + p` of the array. -/
def nrow (t : Fin cfg1.N) (p : Fin 2000) : Fin 20000 := ⟨t.val * 2000 + p.val, by have := (idx1 t).1; have := p.isLt; omega⟩

theorem rows1_0 (c : Dev nD) (t : Fin cfg1.N) (p : Fin 2000) (k : Fin 128) :
    iblk1 V c 0 t (ix2 p k) = V c main_v19 (ix2 (nrow t p) k) := by
  show V c main_v19 (((cfg1.win 0).blk t).view.emb (ix2 p k)) = _
  refine congrArg (V c main_v19) (funext fun a => Fin.ext ?_)
  have e := idx1 t
  match a with
  | ⟨0, _⟩ => show win1_0.index t (0 : Fin 2) * 2000 + 1 * p.val = t.val * 2000 + p.val; omega
  | ⟨1, _⟩ => show win1_0.index t (1 : Fin 2) * 128 + 1 * k.val = k.val; omega
theorem rows1_1 (c : Dev nD) (t : Fin cfg1.N) (p : Fin 2000) (k : Fin 128) :
    iblk1 V c 1 t (ix2 p k) = V c main_v51 (ix2 (nrow t p) k) := by
  show V c main_v51 (((cfg1.win 1).blk t).view.emb (ix2 p k)) = _
  refine congrArg (V c main_v51) (funext fun a => Fin.ext ?_)
  have e := idx1 t
  match a with
  | ⟨0, _⟩ => show win1_1.index t (0 : Fin 2) * 2000 + 1 * p.val = t.val * 2000 + p.val; omega
  | ⟨1, _⟩ => show win1_1.index t (1 : Fin 2) * 128 + 1 * k.val = k.val; omega

theorem whole1_2 (c : Dev nD) (t : Fin cfg1.N) : iblk1 V c 2 t = V c main_v53 := by
  funext y
  show V c main_v53 (((cfg1.win 2).blk t).view.emb y) = V c main_v53 y
  refine congrArg (V c main_v53) (funext fun a => Fin.ext ?_)
  have e := idx1 t
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem whole1_3 (c : Dev nD) (t : Fin cfg1.N) : iblk1 V c 3 t = V c main_v55 := by
  funext y
  show V c main_v55 (((cfg1.win 3).blk t).view.emb y) = V c main_v55 y
  refine congrArg (V c main_v55) (funext fun a => Fin.ext ?_)
  have e := idx1 t
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem whole1_4 (c : Dev nD) (t : Fin cfg1.N) : iblk1 V c 4 t = V c main_v56 := by
  funext y
  show V c main_v56 (((cfg1.win 4).blk t).view.emb y) = V c main_v56 y
  refine congrArg (V c main_v56) (funext fun a => Fin.ext ?_)
  have e := idx1 t
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem emb1_5 (t : Fin cfg1.N) (p : Fin 2000) (k : Fin 128) : ((cfg1.win 5).blk t).view.emb (ix2 p k) = ix2 (nrow t p) k := by
  funext a; apply Fin.ext
  have e := idx1 t
  match a with
  | ⟨0, _⟩ => show win1_5.index t (0 : Fin 2) * 2000 + 1 * p.val = t.val * 2000 + p.val; omega
  | ⟨1, _⟩ => show win1_5.index t (1 : Fin 2) * 128 + 1 * k.val = k.val; omega

/-- The output array after the node kernel's grid, as a function of the arrays the grid was entered with. -/
abbrev outOf (c : Dev nD) : S20000x128.Idx → EReal :=
  Spec.outArr (V c main_v19) (V c main_v51) (V c main_v53) (V c main_v55) (V c main_v56)

theorem flushed1_5 (c : Dev nD) (t : Fin cfg1.N) :
    (dat1 V c).flushed 5 t = ((cfg1.win 5).blk t).view.read (Elt Ideal) (outOf V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext y
  obtain ⟨p, j, rfl⟩ : ∃ (p : Fin 2000) (j : Fin 128), y = ix2 p j := ⟨y 0, y 1, eq_ix2 y⟩
  refine (Rows.node_row (iblk1 V c 0 t) (iblk1 V c 1 t) (iblk1 V c 2 t) (iblk1 V c 3 t) (iblk1 V c 4 t) p j).trans ?_
  show _ = outOf V c (((cfg1.win 5).blk t).view.emb (ix2 p j))
  rw [emb1_5, whole1_2, whole1_3, whole1_4]
  simp only [rows1_0, rows1_1]
  rfl

theorem mem_blk1_5 (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v57).slice (win1_5.rect t)).set ↔ _
  rw [View.set_slice_whole, Rect.mem_set_unit]
  exact Iff.rfl

theorem cover1_5 (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  let t : Fin cfg1.N := ⟨(i 0).val / 2000, by show (i 0).val / 2000 < grid1.N; rw [N_1]; omega⟩
  have e := idx1 t
  have htv : t.val = (i 0).val / 2000 := rfl
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the node kernel's grid. -/
theorem final1_5 (c : Dev nD) : (dat1 V c).arrAt 5 cfg1.N = outOf V c :=
  (dat1 V c).arrAt_eq_of_cover 5 (outOf V c) (fun t _ => flushed1_5 V c t) cover1_5

end Cert.KernelIdeal.Arrays

end
-- ==== Proof.KerHost.lean ====
/-
  The host stretches of the idealized kernel, read back.

  Before the edge kernel the host gathers the endpoint features and positions of every edge (with negative indices
  wrapped), subtracts the positions, cuts the stacked first-layer weights into their three row ranges and recasts the
  biases as one-row matrices.  Between the two kernels it scatter-adds the edge kernel's two output arrays onto the
  nodes, adds the aggregated updates to the positions (the second result), and cuts the node weights in two.  Each buffer
  a kernel is entered with, and the second result, is named here as a pure function of the arguments; a change of float
  format is the identity at the exact-real reading, so the gathered and cut arrays are the reference's own.
-/
import proofs.«109307_j16587163698061_2_alg».proof.Proof.KernelRun
import proofs.«109307_j16587163698061_2_alg».proof.Proof.KerArrays
import proofs.«109307_j16587163698061_2_alg».proof.Proof.RefRead
import Idealize.ShloMosaic.Lib.StableHlo.Run

set_option maxRecDepth 16384

noncomputable section

namespace Cert.KernelIdeal.HostRead

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the edge kernel is entered with -/

set_option maxHeartbeats 4000000 in
theorem in_v26 : (V1 m ρ c main_v26 : S640000x128.Idx → EReal) = Cert.ReferenceIdeal.Read.val_main_v28 (F := Ideal) (m ((c : Thread nD τ).loc main_arg0)) (m ((c : Thread nD τ).loc main_arg2)) := by
  dsimp only [V1, W1, hostOps0]; after_results_simp <;> rfl
set_option maxHeartbeats 4000000 in
theorem in_v33 : (V1 m ρ c main_v33 : S640000x128.Idx → EReal) = Cert.ReferenceIdeal.Read.val_main_v35 (F := Ideal) (m ((c : Thread nD τ).loc main_arg0)) (m ((c : Thread nD τ).loc main_arg2)) := by
  dsimp only [V1, W1, hostOps0]; after_results_simp <;> rfl
set_option maxHeartbeats 4000000 in
theorem in_v18 : (V1 m ρ c main_v18 : S640000x3.Idx → EReal) = Cert.ReferenceIdeal.Read.val_main_v18 (F := Ideal) (m ((c : Thread nD τ).loc main_arg1)) (m ((c : Thread nD τ).loc main_arg2)) := by
  dsimp only [V1, W1, hostOps0]; after_results_simp <;> rfl
theorem in_v35 : (V1 m ρ c main_v35 : S128x128.Idx → EReal) = extractStridedSlice S128x128 ![0, 0] (m ((c : Thread nD τ).loc main_arg3)) slices_S257x128_S128x128_0_0 := by
  dsimp only [V1, W1, hostOps0]; after_results; try rfl
theorem in_v37 : (V1 m ρ c main_v37 : S128x128.Idx → EReal) = extractStridedSlice S128x128 ![128, 0] (m ((c : Thread nD τ).loc main_arg3)) slices_S257x128_S128x128_128_0 := by
  dsimp only [V1, W1, hostOps0]; after_results; try rfl
theorem in_v38 : (V1 m ρ c main_v38 : S1x128.Idx → EReal) = extractStridedSlice S1x128 ![256, 0] (m ((c : Thread nD τ).loc main_arg3)) slices_S257x128_S1x128_256_0 := by
  dsimp only [V1, W1, hostOps0]; after_results; try rfl
theorem in_v39 : (V1 m ρ c main_v39 : S1x128.Idx → EReal) = shapeCast S1x128 (m ((c : Thread nD τ).loc main_arg4)) shapeCasts_S128_S1x128 := by
  dsimp only [V1, W1, hostOps0]; after_results; try rfl
theorem in_v40 : (V1 m ρ c main_v40 : S128x128.Idx → EReal) = (m ((c : Thread nD τ).loc main_arg5)) := by
  dsimp only [V1, W1, hostOps0]; after_results; try rfl
theorem in_v41 : (V1 m ρ c main_v41 : S1x128.Idx → EReal) = shapeCast S1x128 (m ((c : Thread nD τ).loc main_arg6)) shapeCasts_S128_S1x128 := by
  dsimp only [V1, W1, hostOps0]; after_results; try rfl
theorem in_v42 : (V1 m ρ c main_v42 : S128x1.Idx → EReal) = (m ((c : Thread nD τ).loc main_arg9)) := by
  dsimp only [V1, W1, hostOps0]; after_results; try rfl
theorem in_v43 : (V1 m ρ c main_v43 : S1x1.Idx → EReal) = shapeCast S1x1 (m ((c : Thread nD τ).loc main_arg10)) shapeCasts_S1_S1x1 := by
  dsimp only [V1, W1, hostOps0]; after_results; try rfl

/-! ## The edge kernel's two output arrays, as functions of the arguments -/

/-- The message array the edge kernel leaves. -/
def msgK : S640000x128.Idx → EReal :=
  Spec.msgArr (Cert.ReferenceIdeal.Read.val_main_v28 (F := Ideal) (m ((c : Thread nD τ).loc main_arg0)) (m ((c : Thread nD τ).loc main_arg2))) (Cert.ReferenceIdeal.Read.val_main_v35 (F := Ideal) (m ((c : Thread nD τ).loc main_arg0)) (m ((c : Thread nD τ).loc main_arg2)))
    (Cert.ReferenceIdeal.Read.val_main_v18 (F := Ideal) (m ((c : Thread nD τ).loc main_arg1)) (m ((c : Thread nD τ).loc main_arg2)))
    (extractStridedSlice S128x128 ![0, 0] (m ((c : Thread nD τ).loc main_arg3)) slices_S257x128_S128x128_0_0)
    (extractStridedSlice S128x128 ![128, 0] (m ((c : Thread nD τ).loc main_arg3)) slices_S257x128_S128x128_128_0)
    (extractStridedSlice S1x128 ![256, 0] (m ((c : Thread nD τ).loc main_arg3)) slices_S257x128_S1x128_256_0)
    (shapeCast S1x128 (m ((c : Thread nD τ).loc main_arg4)) shapeCasts_S128_S1x128) (m ((c : Thread nD τ).loc main_arg5)) (shapeCast S1x128 (m ((c : Thread nD τ).loc main_arg6)) shapeCasts_S128_S1x128)

/-- The position-update array the edge kernel leaves. -/
def updK : S640000x3.Idx → EReal :=
  Spec.updArr (Cert.ReferenceIdeal.Read.val_main_v28 (F := Ideal) (m ((c : Thread nD τ).loc main_arg0)) (m ((c : Thread nD τ).loc main_arg2))) (Cert.ReferenceIdeal.Read.val_main_v35 (F := Ideal) (m ((c : Thread nD τ).loc main_arg0)) (m ((c : Thread nD τ).loc main_arg2)))
    (Cert.ReferenceIdeal.Read.val_main_v18 (F := Ideal) (m ((c : Thread nD τ).loc main_arg1)) (m ((c : Thread nD τ).loc main_arg2)))
    (extractStridedSlice S128x128 ![0, 0] (m ((c : Thread nD τ).loc main_arg3)) slices_S257x128_S128x128_0_0)
    (extractStridedSlice S128x128 ![128, 0] (m ((c : Thread nD τ).loc main_arg3)) slices_S257x128_S128x128_128_0)
    (extractStridedSlice S1x128 ![256, 0] (m ((c : Thread nD τ).loc main_arg3)) slices_S257x128_S1x128_256_0)
    (shapeCast S1x128 (m ((c : Thread nD τ).loc main_arg4)) shapeCasts_S128_S1x128) (m ((c : Thread nD τ).loc main_arg5)) (shapeCast S1x128 (m ((c : Thread nD τ).loc main_arg6)) shapeCasts_S128_S1x128)
    (m ((c : Thread nD τ).loc main_arg9)) (shapeCast S1x1 (m ((c : Thread nD τ).loc main_arg10)) shapeCasts_S1_S1x1)

theorem w2_v44_0 : (W2 m ρ c (Proc.devRef .tc main_v44_0) : S640000x128.Idx → EReal) = msgK m c := by
  refine (W2_arr m ρ c 11).trans ((Arrays.final0_11 (V1 m ρ) c).trans ?_)
  unfold msgK
  dsimp only [Arrays.msgOf]
  rw [in_v26, in_v33, in_v18, in_v35, in_v37, in_v38, in_v39, in_v40, in_v41]

theorem w2_v44_1 : (W2 m ρ c (Proc.devRef .tc main_v44_1) : S640000x3.Idx → EReal) = updK m c := by
  refine (W2_arr m ρ c 12).trans ((Arrays.final0_12 (V1 m ρ) c).trans ?_)
  unfold updK
  dsimp only [Arrays.updOf]
  rw [in_v26, in_v33, in_v18, in_v35, in_v37, in_v38, in_v39, in_v40, in_v41, in_v42, in_v43]

/-! ## Buffers the edge kernel does not write, after it -/

theorem w2_arg1 : (W2 m ρ c (Proc.devRef .tc main_arg1) : S20000x3.Idx → EReal) = (m ((c : Thread nD τ).loc main_arg1)) := by
  rw [W2_of_ne m ρ c main_arg1 (by decide)]
  dsimp only [W1, hostOps0]; after_results; try rfl
theorem w2_arg7 : (W2 m ρ c (Proc.devRef .tc main_arg7) : S256x128.Idx → EReal) = (m ((c : Thread nD τ).loc main_arg7)) := by
  rw [W2_of_ne m ρ c main_arg7 (by decide)]
  dsimp only [W1, hostOps0]; after_results; try rfl
theorem w2_arg8 : (W2 m ρ c (Proc.devRef .tc main_arg8) : S128.Idx → EReal) = (m ((c : Thread nD τ).loc main_arg8)) := by
  rw [W2_of_ne m ρ c main_arg8 (by decide)]
  dsimp only [W1, hostOps0]; after_results; try rfl
theorem w2_v1 : (W2 m ρ c (Proc.devRef .tc main_v1) : S640000.Idx → BitVec 32) = Cert.ReferenceIdeal.Read.val_main_v1 (F := Ideal) (m ((c : Thread nD τ).loc main_arg2)) := by
  rw [W2_of_ne m ρ c main_v1 (by decide)]
  dsimp only [W1, hostOps0]; after_results; try rfl
theorem w2_v19 : (W2 m ρ c (Proc.devRef .tc main_v19) : S20000x128.Idx → EReal) = (m ((c : Thread nD τ).loc main_arg0)) := by
  rw [W2_of_ne m ρ c main_v19 (by decide)]
  dsimp only [W1, hostOps0]; after_results; try rfl

/-! ## The second result, and what the node kernel is entered with -/

/-- THE SECOND RESULT: the positions plus the position updates added up per source node. -/
theorem res_pos : (W4 m ρ c (Proc.devRef .tc main_v48) : S20000x3.Idx → EReal)
    = addf (F := Ideal) (φ := .f32) (m ((c : Thread nD τ).loc main_arg1)) (Host.scatterAdd (F := Ideal) (φ := .f32) scatter_S20000x3_S640000x1_S640000x3_1_0_0_1
        (Cert.ReferenceIdeal.Read.val_main_v54 (F := Ideal)) (Cert.ReferenceIdeal.Read.val_main_v55 (F := Ideal) (m ((c : Thread nD τ).loc main_arg2))) (updK m c)) := by
  rw [W4_of_ne m ρ c main_v48 (by decide)]
  dsimp only [W3, hostOps1]; after_results
  rw [w2_arg1, w2_v1, w2_v44_1]
  rfl

theorem nin_v19 : (V3 m ρ c main_v19 : S20000x128.Idx → EReal) = (m ((c : Thread nD τ).loc main_arg0)) := by
  dsimp only [V3, W3, hostOps1]; after_results
  exact w2_v19 m ρ c
theorem nin_v51 : (V3 m ρ c main_v51 : S20000x128.Idx → EReal)
    = Host.scatterAdd (F := Ideal) (φ := .f32) scatter_S20000x128_S640000x1_S640000x128_1_0_0_1 (Cert.ReferenceIdeal.Read.val_main_v58 (F := Ideal))
        (Cert.ReferenceIdeal.Read.val_main_v59 (F := Ideal) (m ((c : Thread nD τ).loc main_arg2))) (msgK m c) := by
  dsimp only [V3, W3, hostOps1]; after_results
  rw [w2_v1, w2_v44_0]
  rfl
theorem nin_v53 : (V3 m ρ c main_v53 : S128x128.Idx → EReal) = extractStridedSlice S128x128 ![0, 0] (m ((c : Thread nD τ).loc main_arg7)) slices_S256x128_S128x128_0_0 := by
  dsimp only [V3, W3, hostOps1]; after_results
  rw [w2_arg7]; rfl
theorem nin_v55 : (V3 m ρ c main_v55 : S128x128.Idx → EReal) = extractStridedSlice S128x128 ![128, 0] (m ((c : Thread nD τ).loc main_arg7)) slices_S256x128_S128x128_128_0 := by
  dsimp only [V3, W3, hostOps1]; after_results
  rw [w2_arg7]; rfl
theorem nin_v56 : (V3 m ρ c main_v56 : S1x128.Idx → EReal) = shapeCast S1x128 (m ((c : Thread nD τ).loc main_arg8)) shapeCasts_S128_S1x128 := by
  dsimp only [V3, W3, hostOps1]; after_results
  rw [w2_arg8]; rfl

/-- THE FIRST RESULT: the node layer's output of the features and the messages added up per source node. -/
theorem res_out : (W4 m ρ c (Proc.devRef .tc main_v57) : S20000x128.Idx → EReal)
    = Spec.outArr (m ((c : Thread nD τ).loc main_arg0))
        (Host.scatterAdd (F := Ideal) (φ := .f32) scatter_S20000x128_S640000x1_S640000x128_1_0_0_1 (Cert.ReferenceIdeal.Read.val_main_v58 (F := Ideal))
          (Cert.ReferenceIdeal.Read.val_main_v59 (F := Ideal) (m ((c : Thread nD τ).loc main_arg2))) (msgK m c))
        (extractStridedSlice S128x128 ![0, 0] (m ((c : Thread nD τ).loc main_arg7)) slices_S256x128_S128x128_0_0)
        (extractStridedSlice S128x128 ![128, 0] (m ((c : Thread nD τ).loc main_arg7)) slices_S256x128_S128x128_128_0)
        (shapeCast S1x128 (m ((c : Thread nD τ).loc main_arg8)) shapeCasts_S128_S1x128) := by
  refine (W4_arr m ρ c 5).trans ((Arrays.final1_5 (V3 m ρ) c).trans ?_)
  dsimp only [Arrays.outOf]
  rw [nin_v19, nin_v51, nin_v53, nin_v55, nin_v56]

end Cert.KernelIdeal.HostRead

end
-- ==== Proof.LibExtReal.lean ====
/-
  General facts about extended reals that are real numbers, and about the float literals this certificate meets.

  At the exact-real reading of floats the arithmetic laws that fail at the infinities (`x - x = 0`, cancelling a
  quotient) hold for the REAL extended reals; `IsReal` is that predicate, closed under sums, products, finite sums
  and quotients by a nonzero real.  With it: a softmax over ONE entry is the constant one.
-/
import Idealize.ShloMosaic.PureOps.Ideal
import Idealize.ShloMosaic.PureOps.Ideal.Laws

noncomputable section

open Idealize.ShloMosaic

namespace Cert.LibExtReal

/-- The extended real `x` is a real number (neither infinity). -/
def IsReal (x : EReal) : Prop := ∃ r : ℝ, x = (r : EReal)

theorem IsReal.coe (r : ℝ) : IsReal (r : EReal) := ⟨r, rfl⟩

theorem IsReal.zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A real divided by a nonzero real is real. -/
theorem IsReal.div_coe {x : EReal} (hx : IsReal x) {y : ℝ} (hy : y ≠ 0) : IsReal (Ideal.div x (y : EReal)) := by
  rw [Ideal.div_coe hy]; exact hx.mul ⟨_, rfl⟩

/-- A real minus itself is zero (false at the infinities). -/
theorem IsReal.sub_self {x : EReal} (hx : IsReal x) : x - x = 0 := by
  obtain ⟨a, rfl⟩ := hx
  rw [← EReal.coe_sub, _root_.sub_self]; rfl

/-- `e⁰ = 1`. -/
theorem exp_zero : Ideal.exp 0 = 1 := by
  show Ideal.exp ((0 : ℝ) : EReal) = 1
  rw [Ideal.exp_coe, Real.exp_zero]; rfl

/-- `1 / 1 = 1`. -/
theorem div_one_one : Ideal.div 1 1 = 1 := by
  have h := Ideal.div_coe (y := 1) one_ne_zero (1 : EReal)
  rw [EReal.coe_one] at h
  rw [h]; simp

/-- The f32 pattern of `1.0` denotes `1`. -/
theorem ofBits_one : Ideal.ofBits .f32 0x3F800000#32 = 1 := by
  simp [Ideal.ofBits, Ideal.ieee, -EReal.coe_mul]; norm_num

/-- The f32 pattern of `112.0` denotes the real `112`. -/
theorem ofBits_112 : Ideal.ofBits .f32 0x42E00000#32 = ((112 : ℝ) : EReal) := by
  simp [Ideal.ofBits, Ideal.ieee, -EReal.coe_mul]; norm_num

/-- The f32 pattern of `-inf` denotes `⊥`. -/
theorem ofBits_neg_inf : Ideal.ofBits .f32 0xFF800000#32 = ⊥ := by
  simp [Ideal.ofBits, Ideal.ieee]

/-- `√112` is a nonzero real. -/
theorem sqrt_112 : Ideal.sqrt (Ideal.ofBits .f32 0x42E00000#32) = ((Real.sqrt 112 : ℝ) : EReal) := by
  rw [ofBits_112, Ideal.sqrt_coe, if_neg (by norm_num)]

theorem sqrt_112_ne_zero : Real.sqrt 112 ≠ 0 := by
  rw [Ne, Real.sqrt_eq_zero']; norm_num

/-- A SOFTMAX OVER ONE ENTRY IS ONE: for a real score `s`, with the maximum taken from `-∞` over the one entry (and
    once more against `-∞`), `e^(s - max) / (0 + e^(s - max)) = 1`. -/
theorem softmax_single {s : EReal} (hs : IsReal s) :
    Ideal.div (Ideal.exp (s - max ⊥ (max s ⊥))) (0 + Ideal.exp (s - max ⊥ (max s ⊥))) = 1 := by
  rw [max_bot_right, max_bot_left, hs.sub_self, exp_zero, zero_add, div_one_one]

end Cert.LibExtReal

end
-- ==== Proof.RefRows.lean ====
/-
  The reference, read one row at a time.

  The reference computes the layer with whole-array operations: a lane sum, a concatenation of the two gathered feature
  arrays and the squared length along the feature axis, one matrix product against the stacked weights, `silu` spelt as
  `x · (1 / (1 + e^(-x)))`.  Read at an index each result is the layer's row formula: the sum over the 257 (or 256)
  joined columns splits into the sums over the pieces, each piece of the concatenation read where its columns lie.
-/
import proofs.«109307_j16587163698061_2_alg».proof.Proof.RefRead
import proofs.«109307_j16587163698061_2_alg».proof.Proof.Spec
import proofs.«109307_j16587163698061_2_alg».proof.Proof.LibExtReal
import Idealize.ShloMosaic.Lib.Pipeline.Value
import Idealize.ShloMosaic.Lib.ValueIdx
import Idealize.ShloMosaic.PureOps.Ideal.Laws

set_option maxRecDepth 16384

noncomputable section

namespace Cert.ReferenceIdeal.Rows

open Idealize.ShloMosaic Idealize.ShloMosaic.ValueIdx Cert.ReferenceIdeal Cert.ReferenceIdeal.Read
open scoped BigOperators

variable (x0 : (⟨S20000x128, .f32⟩ : BufTy).Contents (Elt Ideal)) (x1 : (⟨S20000x3, .f32⟩ : BufTy).Contents (Elt Ideal))
  (x2 : (⟨S2x640000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal))

/-- `y · (1 / (1 + e^(-y)))` with both ones the float literal `1.0` is `silu y`. -/
theorem silu_host (y o1 o2 : EReal) (h1 : o1 = Ideal.ofBits .f32 0x3F800000#32) (h2 : o2 = Ideal.ofBits .f32 0x3F800000#32) :
    y * Ideal.div o1 (o2 + Ideal.exp (-y)) = Spec.silu y := by
  rw [h1, h2, Cert.LibExtReal.ofBits_one]; rfl

/-! ## The squared length -/

theorem dist2_at (e : Fin 640000) (u : Fin 1) :
    val_main_v21 (F := Ideal) x1 x2 (ix2 e u) = Spec.dist2 (fun c => val_main_v18 (F := Ideal) x1 x2 (ix2 e c)) := by
  rw [val_main_v21_apply, show idx_main_v21 (ix2 e u) = ix1 e from funext fun a => Fin.ext (by match a with | ⟨0, _⟩ => rfl), val_main_v20_apply]
  show Ideal.ofBits .f32 0x00000000#32 + _ = _
  rw [Ideal.ofBits_zero_f32, zero_add]
  unfold Spec.dist2
  refine Finset.sum_congr rfl fun k _ => ?_
  rw [show idx_main_v20 (ix1 e) k = ix2 e k from funext fun a => Fin.ext (by match a with | ⟨0, _⟩ => rfl | ⟨1, _⟩ => rfl)]
  rfl

/-! ## The joined edge features, piece by piece -/

theorem cat_left (e : Fin 640000) (k : Fin 128) :
    val_main_v36 (F := Ideal) x0 x1 x2 (ix2 e (⟨k.val, by omega⟩ : Fin 257)) = val_main_v28 (F := Ideal) x0 x2 (ix2 e k) := by
  unfold val_main_v36
  exact concatenate_apply_piece (1 : Fin S640000x257.rank) _ _ _ 0 (by show (0 : ℕ) < 3; omega) S640000x128 _ rfl rfl 0 rfl (ix2 e k)
    (fun b hb => by match b with | ⟨0, _⟩ => rfl | ⟨1, _⟩ => exact absurd rfl hb) (by show 0 + k.val = k.val; omega)

theorem cat_mid (e : Fin 640000) (k : Fin 128) :
    val_main_v36 (F := Ideal) x0 x1 x2 (ix2 e (⟨128 + k.val, by omega⟩ : Fin 257)) = val_main_v35 (F := Ideal) x0 x2 (ix2 e k) := by
  unfold val_main_v36
  exact concatenate_apply_piece (1 : Fin S640000x257.rank) _ _ _ 1 (by show (1 : ℕ) < 3; omega) S640000x128 _ rfl rfl 128 rfl (ix2 e k)
    (fun b hb => by match b with | ⟨0, _⟩ => rfl | ⟨1, _⟩ => exact absurd rfl hb) (by show 128 + k.val = 128 + k.val; rfl)

theorem cat_right (e : Fin 640000) (k : Fin 1) :
    val_main_v36 (F := Ideal) x0 x1 x2 (ix2 e (⟨128 + 128 + k.val, by omega⟩ : Fin 257)) = val_main_v21 (F := Ideal) x1 x2 (ix2 e k) := by
  unfold val_main_v36
  exact concatenate_apply_piece (1 : Fin S640000x257.rank) _ _ _ 2 (by show (2 : ℕ) < 3; omega) S640000x1 _ rfl rfl 256 rfl (ix2 e k)
    (fun b hb => by match b with | ⟨0, _⟩ => rfl | ⟨1, _⟩ => exact absurd rfl hb) (by show 256 + k.val = 128 + 128 + k.val; omega)

/-! ## The hidden layer -/

section Edge
variable (A B : Spec.M128.Idx → EReal) (w b1 b2 : Spec.R128.Idx → EReal)
  (hA : ∀ (k j : Fin 128), A (ix2 k j) = x3 (ix2 (⟨k.val, by omega⟩ : Fin 257) j))
  (hB : ∀ (k j : Fin 128), B (ix2 k j) = x3 (ix2 (⟨128 + k.val, by omega⟩ : Fin 257) j))
  (hw : ∀ (j : Fin 128), w (ix2 0 j) = x3 (ix2 (⟨256, by omega⟩ : Fin 257) j))
  (hb1 : ∀ (j : Fin 128), b1 (ix2 0 j) = x4 (ix1 j))
  (hb2 : ∀ (j : Fin 128), b2 (ix2 0 j) = x6 (ix1 j))

include hA hB hw hb1 in
theorem hid_at (e : Fin 640000) (j : Fin 128) :
    val_main_v41 (F := Ideal) x0 x1 x2 x3 x4 (ix2 e j)
      = Spec.hid A B w b1 (fun k => val_main_v28 (F := Ideal) x0 x2 (ix2 e k)) (fun k => val_main_v35 (F := Ideal) x0 x2 (ix2 e k))
          (fun c => val_main_v18 (F := Ideal) x1 x2 (ix2 e c)) j := by
  unfold Spec.hid
  refine (silu_host _ _ _ ((val_main_call0_v4_apply _).trans rfl) ((val_main_call0_v2_apply _).trans rfl)).trans ?_
  refine congrArg Spec.silu ?_
  show val_main_v37 (F := Ideal) x0 x1 x2 x3 (ix2 e j) + val_main_v39 (F := Ideal) x4 (ix2 e j) = _
  rw [val_main_v37_apply, Spec.sum_three 128 128 1 257 rfl, val_main_v39_apply, val_main_v38_apply,
    show idx_main_v38 (idx_main_v39 (ix2 e j)) = ix1 j from funext fun a => Fin.ext (by match a with | ⟨0, _⟩ => rfl), Fin.sum_univ_one, ← hb1]
  refine congrArg (· + _) ?_
  refine congrArg₂ (· + ·) (congrArg₂ (· + ·) (Finset.sum_congr rfl fun k _ => ?_) (Finset.sum_congr rfl fun k _ => ?_)) ?_
  · rw [show lidx_main_v37 (ix2 e j) (⟨k.val, by omega⟩ : Fin 257) = ix2 e (⟨k.val, by omega⟩ : Fin 257) from funext fun a => Fin.ext (by match a with | ⟨0, _⟩ => rfl | ⟨1, _⟩ => rfl),
      show ridx_main_v37 (ix2 e j) (⟨k.val, by omega⟩ : Fin 257) = ix2 (⟨k.val, by omega⟩ : Fin 257) j from funext fun a => Fin.ext (by match a with | ⟨0, _⟩ => rfl | ⟨1, _⟩ => rfl), cat_left, hA]
  · rw [show lidx_main_v37 (ix2 e j) (⟨128 + k.val, by omega⟩ : Fin 257) = ix2 e (⟨128 + k.val, by omega⟩ : Fin 257) from funext fun a => Fin.ext (by match a with | ⟨0, _⟩ => rfl | ⟨1, _⟩ => rfl),
      show ridx_main_v37 (ix2 e j) (⟨128 + k.val, by omega⟩ : Fin 257) = ix2 (⟨128 + k.val, by omega⟩ : Fin 257) j from funext fun a => Fin.ext (by match a with | ⟨0, _⟩ => rfl | ⟨1, _⟩ => rfl), cat_mid, hB]
  · rw [show lidx_main_v37 (ix2 e j) (⟨128 + 128 + (0 : Fin 1).val, by omega⟩ : Fin 257) = ix2 e (⟨128 + 128 + (0 : Fin 1).val, by omega⟩ : Fin 257) from funext fun a => Fin.ext (by match a with | ⟨0, _⟩ => rfl | ⟨1, _⟩ => rfl),
      show ridx_main_v37 (ix2 e j) (⟨128 + 128 + (0 : Fin 1).val, by omega⟩ : Fin 257) = ix2 (⟨256, by omega⟩ : Fin 257) j from funext fun a => Fin.ext (by match a with | ⟨0, _⟩ => rfl | ⟨1, _⟩ => rfl), cat_right, dist2_at, hw]

include hA hB hw hb1 hb2 in
theorem msg_at (e : Fin 640000) (j : Fin 128) :
    val_main_v46 (F := Ideal) x0 x1 x2 x3 x4 x5 x6 (ix2 e j)
      = Spec.msg A B w b1 x5 b2 (fun k => val_main_v28 (F := Ideal) x0 x2 (ix2 e k)) (fun k => val_main_v35 (F := Ideal) x0 x2 (ix2 e k))
          (fun c => val_main_v18 (F := Ideal) x1 x2 (ix2 e c)) j := by
  unfold Spec.msg
  refine (silu_host _ _ _ ((val_main_call1_v4_apply _).trans rfl) ((val_main_call1_v2_apply _).trans rfl)).trans ?_
  refine congrArg Spec.silu ?_
  show val_main_v42 (F := Ideal) x0 x1 x2 x3 x4 x5 (ix2 e j) + val_main_v44 (F := Ideal) x6 (ix2 e j) = _
  rw [val_main_v42_apply, val_main_v44_apply, val_main_v43_apply,
    show idx_main_v43 (idx_main_v44 (ix2 e j)) = ix1 j from funext fun a => Fin.ext (by match a with | ⟨0, _⟩ => rfl), ← hb2]
  refine congrArg (· + _) (Finset.sum_congr rfl fun k _ => ?_)
  rw [show lidx_main_v42 (ix2 e j) k = ix2 e k from funext fun a => Fin.ext (by match a with | ⟨0, _⟩ => rfl | ⟨1, _⟩ => rfl), show ridx_main_v42 (ix2 e j) k = ix2 k j from funext fun a => Fin.ext (by match a with | ⟨0, _⟩ => rfl | ⟨1, _⟩ => rfl),
    hid_at x0 x1 x2 x3 x4 A B w b1 hA hB hw hb1]

include hA hB hw hb1 hb2 in
/-- THE MESSAGE ARRAY of the reference is the layer's. -/
theorem msg_eq :
    val_main_v46 (F := Ideal) x0 x1 x2 x3 x4 x5 x6
      = Spec.msgArr (val_main_v28 (F := Ideal) x0 x2) (val_main_v35 (F := Ideal) x0 x2) (val_main_v18 (F := Ideal) x1 x2) A B w b1 x5 b2 := by
  funext i
  obtain ⟨e, j, rfl⟩ : ∃ (e : Fin 640000) (j : Fin 128), i = ix2 e j := ⟨i 0, i 1, eq_ix2 i⟩
  exact msg_at x0 x1 x2 x3 x4 x5 x6 A B w b1 b2 hA hB hw hb1 hb2 e j

variable (wc : Spec.C128.Idx → EReal) (bc : Spec.U11.Idx → EReal)
  (hwc : ∀ (k : Fin 128), wc (ix2 k 0) = x9 (ix2 k 0))
  (hbc : bc (ix2 0 0) = x10 (ix1 0))

include hA hB hw hb1 hb2 hwc hbc in
/-- THE POSITION-UPDATE ARRAY of the reference is the layer's. -/
theorem upd_eq :
    val_main_v53 (F := Ideal) x0 x1 x2 x3 x4 x5 x6 x9 x10
      = Spec.updArr (val_main_v28 (F := Ideal) x0 x2) (val_main_v35 (F := Ideal) x0 x2) (val_main_v18 (F := Ideal) x1 x2) A B w b1 x5 b2 wc bc := by
  funext i
  obtain ⟨e, c, rfl⟩ : ∃ (e : Fin 640000) (c : Fin 3), i = ix2 e c := ⟨i 0, i 1, eq_ix2 i⟩
  unfold Spec.updArr Spec.gate
  show val_main_v18 (F := Ideal) x1 x2 (ix2 e c) * val_main_v52 (F := Ideal) x0 x1 x2 x3 x4 x5 x6 x9 x10 (ix2 e c) = _
  refine congrArg (fun z : EReal => val_main_v18 (F := Ideal) x1 x2 (ix2 e c) * z) ?_
  rw [val_main_v52_apply, show idx_main_v52 (ix2 e c) = ix2 e (0 : Fin 1) from funext fun a => Fin.ext (by match a with | ⟨0, _⟩ => rfl | ⟨1, _⟩ => rfl)]
  show Ideal.tanh (val_main_v47 (F := Ideal) x0 x1 x2 x3 x4 x5 x6 x9 (ix2 e 0) + val_main_v49 (F := Ideal) x10 (ix2 e 0)) = _
  refine congrArg Ideal.tanh ?_
  rw [val_main_v47_apply, val_main_v49_apply, val_main_v48_apply,
    show idx_main_v48 (idx_main_v49 (ix2 e (0 : Fin 1))) = ix1 0 from funext fun a => Fin.ext (by match a with | ⟨0, _⟩ => rfl), ← hbc]
  refine congrArg (· + _) (Finset.sum_congr rfl fun k _ => ?_)
  rw [show lidx_main_v47 (ix2 e (0 : Fin 1)) k = ix2 e k from funext fun a => Fin.ext (by match a with | ⟨0, _⟩ => rfl | ⟨1, _⟩ => rfl), show ridx_main_v47 (ix2 e (0 : Fin 1)) k = ix2 k 0 from funext fun a => Fin.ext (by match a with | ⟨0, _⟩ => rfl | ⟨1, _⟩ => rfl),
    msg_at x0 x1 x2 x3 x4 x5 x6 A B w b1 b2 hA hB hw hb1 hb2, ← hwc]

end Edge

/-! ## The node layer -/

section Node
variable (Na Nb : Spec.M128.Idx → EReal) (bn : Spec.R128.Idx → EReal)
  (hNa : ∀ (k j : Fin 128), Na (ix2 k j) = x7 (ix2 (⟨k.val, by omega⟩ : Fin 256) j))
  (hNb : ∀ (k j : Fin 128), Nb (ix2 k j) = x7 (ix2 (⟨128 + k.val, by omega⟩ : Fin 256) j))
  (hbn : ∀ (j : Fin 128), bn (ix2 0 j) = x8 (ix1 j))

theorem ncat_left (n : Fin 20000) (k : Fin 128) :
    val_main_v61 (F := Ideal) x0 x1 x2 x3 x4 x5 x6 (ix2 n (⟨k.val, by omega⟩ : Fin 256)) = x0 (ix2 n k) := by
  unfold val_main_v61
  exact concatenate_apply_piece (1 : Fin S20000x256.rank) _ _ _ 0 (by show (0 : ℕ) < 2; omega) S20000x128 _ rfl rfl 0 rfl (ix2 n k)
    (fun b hb => by match b with | ⟨0, _⟩ => rfl | ⟨1, _⟩ => exact absurd rfl hb) (by show 0 + k.val = k.val; omega)

theorem ncat_right (n : Fin 20000) (k : Fin 128) :
    val_main_v61 (F := Ideal) x0 x1 x2 x3 x4 x5 x6 (ix2 n (⟨128 + k.val, by omega⟩ : Fin 256))
      = val_main_v60 (F := Ideal) x0 x1 x2 x3 x4 x5 x6 (ix2 n k) := by
  unfold val_main_v61
  exact concatenate_apply_piece (1 : Fin S20000x256.rank) _ _ _ 1 (by show (1 : ℕ) < 2; omega) S20000x128 _ rfl rfl 128 rfl (ix2 n k)
    (fun b hb => by match b with | ⟨0, _⟩ => rfl | ⟨1, _⟩ => exact absurd rfl hb) (by show 128 + k.val = 128 + k.val; rfl)

include hNa hNb hbn in
/-- THE OUTPUT ARRAY of the reference is the layer's, of the features and the aggregated messages. -/
theorem out_eq :
    val_main_v66 (F := Ideal) x0 x1 x2 x3 x4 x5 x6 x7 x8
      = Spec.outArr x0 (val_main_v60 (F := Ideal) x0 x1 x2 x3 x4 x5 x6) Na Nb bn := by
  funext i
  obtain ⟨n, j, rfl⟩ : ∃ (n : Fin 20000) (j : Fin 128), i = ix2 n j := ⟨i 0, i 1, eq_ix2 i⟩
  unfold Spec.outArr Spec.nodeOut
  refine (silu_host _ _ _ ((val_main_call2_v4_apply _).trans rfl) ((val_main_call2_v2_apply _).trans rfl)).trans ?_
  refine congrArg Spec.silu ?_
  show val_main_v62 (F := Ideal) x0 x1 x2 x3 x4 x5 x6 x7 (ix2 n j) + val_main_v64 (F := Ideal) x8 (ix2 n j) = _
  rw [val_main_v62_apply, Spec.sum_two 128 128 256 rfl, val_main_v64_apply, val_main_v63_apply,
    show idx_main_v63 (idx_main_v64 (ix2 n j)) = ix1 j from funext fun a => Fin.ext (by match a with | ⟨0, _⟩ => rfl), ← hbn]
  refine congrArg (· + _) ?_
  refine congrArg₂ (· + ·) (Finset.sum_congr rfl fun k _ => ?_) (Finset.sum_congr rfl fun k _ => ?_)
  · rw [show lidx_main_v62 (ix2 n j) (⟨k.val, by omega⟩ : Fin 256) = ix2 n (⟨k.val, by omega⟩ : Fin 256) from funext fun a => Fin.ext (by match a with | ⟨0, _⟩ => rfl | ⟨1, _⟩ => rfl),
      show ridx_main_v62 (ix2 n j) (⟨k.val, by omega⟩ : Fin 256) = ix2 (⟨k.val, by omega⟩ : Fin 256) j from funext fun a => Fin.ext (by match a with | ⟨0, _⟩ => rfl | ⟨1, _⟩ => rfl), ncat_left, hNa]
  · rw [show lidx_main_v62 (ix2 n j) (⟨128 + k.val, by omega⟩ : Fin 256) = ix2 n (⟨128 + k.val, by omega⟩ : Fin 256) from funext fun a => Fin.ext (by match a with | ⟨0, _⟩ => rfl | ⟨1, _⟩ => rfl),
      show ridx_main_v62 (ix2 n j) (⟨128 + k.val, by omega⟩ : Fin 256) = ix2 (⟨128 + k.val, by omega⟩ : Fin 256) j from funext fun a => Fin.ext (by match a with | ⟨0, _⟩ => rfl | ⟨1, _⟩ => rfl), ncat_right, hNb]

end Node

end Cert.ReferenceIdeal.Rows

end
-- ==== Proof.Bridge.lean ====
/-
  The two sides meet.

  The idealized kernel's two results, read back through its host stretches and its two grids, are the layer's arrays of
  the arguments; the reference's two results are the same arrays.  What is checked here is only that the pieces the
  kernel's host code cuts out of the stacked weights (rows 0–127, 128–255 and 256; the biases as one-row matrices) are
  the entries the reference's single matrix product meets them at.
-/
import proofs.«109307_j16587163698061_2_alg».proof.Proof.KerHost
import proofs.«109307_j16587163698061_2_alg».proof.Proof.RefRows

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The cut weights, entry by entry -/

theorem we1_top (k : Fin 128) (j : Fin 128) :
    (extractStridedSlice Cert.KernelIdeal.S128x128 ![0, 0] (m ((c : Thread Cert.KernelIdeal.nD Cert.KernelIdeal.τ).loc Cert.KernelIdeal.main_arg3)) slices_S257x128_S128x128_0_0) (ix2 k j) = (m ((c : Thread Cert.KernelIdeal.nD Cert.KernelIdeal.τ).loc Cert.KernelIdeal.main_arg3)) (ix2 (⟨k.val, by omega⟩ : Fin 257) j) :=
  extractStridedSlice_apply ![0, 0] _ _ (ix2 k j) (ix2 (⟨k.val, by omega⟩ : Fin 257) j) (fun a => match a with
    | ⟨0, _⟩ => by show k.val = 0 + k.val; omega
    | ⟨1, _⟩ => by show j.val = 0 + j.val; omega)

theorem we1_mid (k : Fin 128) (j : Fin 128) :
    (extractStridedSlice Cert.KernelIdeal.S128x128 ![128, 0] (m ((c : Thread Cert.KernelIdeal.nD Cert.KernelIdeal.τ).loc Cert.KernelIdeal.main_arg3)) slices_S257x128_S128x128_128_0) (ix2 k j) = (m ((c : Thread Cert.KernelIdeal.nD Cert.KernelIdeal.τ).loc Cert.KernelIdeal.main_arg3)) (ix2 (⟨128 + k.val, by omega⟩ : Fin 257) j) :=
  extractStridedSlice_apply ![128, 0] _ _ (ix2 k j) (ix2 (⟨128 + k.val, by omega⟩ : Fin 257) j) (fun a => match a with
    | ⟨0, _⟩ => by show 128 + k.val = 128 + k.val; omega
    | ⟨1, _⟩ => by show j.val = 0 + j.val; omega)

theorem wn_top (k : Fin 128) (j : Fin 128) :
    (extractStridedSlice Cert.KernelIdeal.S128x128 ![0, 0] (m ((c : Thread Cert.KernelIdeal.nD Cert.KernelIdeal.τ).loc Cert.KernelIdeal.main_arg7)) slices_S256x128_S128x128_0_0) (ix2 k j) = (m ((c : Thread Cert.KernelIdeal.nD Cert.KernelIdeal.τ).loc Cert.KernelIdeal.main_arg7)) (ix2 (⟨k.val, by omega⟩ : Fin 256) j) :=
  extractStridedSlice_apply ![0, 0] _ _ (ix2 k j) (ix2 (⟨k.val, by omega⟩ : Fin 256) j) (fun a => match a with
    | ⟨0, _⟩ => by show k.val = 0 + k.val; omega
    | ⟨1, _⟩ => by show j.val = 0 + j.val; omega)

theorem wn_bot (k : Fin 128) (j : Fin 128) :
    (extractStridedSlice Cert.KernelIdeal.S128x128 ![128, 0] (m ((c : Thread Cert.KernelIdeal.nD Cert.KernelIdeal.τ).loc Cert.KernelIdeal.main_arg7)) slices_S256x128_S128x128_128_0) (ix2 k j) = (m ((c : Thread Cert.KernelIdeal.nD Cert.KernelIdeal.τ).loc Cert.KernelIdeal.main_arg7)) (ix2 (⟨128 + k.val, by omega⟩ : Fin 256) j) :=
  extractStridedSlice_apply ![128, 0] _ _ (ix2 k j) (ix2 (⟨128 + k.val, by omega⟩ : Fin 256) j) (fun a => match a with
    | ⟨0, _⟩ => by show 128 + k.val = 128 + k.val; omega
    | ⟨1, _⟩ => by show j.val = 0 + j.val; omega)

theorem we1_last (j : Fin 128) :
    (extractStridedSlice Cert.KernelIdeal.S1x128 ![256, 0] (m ((c : Thread Cert.KernelIdeal.nD Cert.KernelIdeal.τ).loc Cert.KernelIdeal.main_arg3)) slices_S257x128_S1x128_256_0) (ix2 0 j) = (m ((c : Thread Cert.KernelIdeal.nD Cert.KernelIdeal.τ).loc Cert.KernelIdeal.main_arg3)) (ix2 (⟨256, by omega⟩ : Fin 257) j) :=
  extractStridedSlice_apply ![256, 0] _ _ (ix2 0 j) (ix2 (⟨256, by omega⟩ : Fin 257) j) (fun a => match a with
    | ⟨0, _⟩ => by show 256 = 256 + (0 : Fin 1).val; rfl
    | ⟨1, _⟩ => by show j.val = 0 + j.val; omega)

/-! ## The edge kernel's arrays are the reference's -/

theorem msg_eq : Cert.KernelIdeal.HostRead.msgK m c
    = Cert.ReferenceIdeal.Read.val_main_v46 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  unfold Cert.KernelIdeal.HostRead.msgK
  exact (Cert.ReferenceIdeal.Rows.msg_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) _ _ _ _ _
    (we1_top m c) (we1_mid m c) (we1_last m c)
    (fun j => shapeCast_a_1a_apply _ _ 0 j) (fun j => shapeCast_a_1a_apply _ _ 0 j)).symm

theorem upd_eq : Cert.KernelIdeal.HostRead.updK m c
    = Cert.ReferenceIdeal.Read.val_main_v53 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg9)) (m ((c : Thread Cert.KernelIdeal.nD Cert.KernelIdeal.τ).loc Cert.KernelIdeal.main_arg10)) := by
  unfold Cert.KernelIdeal.HostRead.updK
  exact (Cert.ReferenceIdeal.Rows.upd_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg9)) (m ((c : Thread Cert.KernelIdeal.nD Cert.KernelIdeal.τ).loc Cert.KernelIdeal.main_arg10)) _ _ _ _ _
    (we1_top m c) (we1_mid m c) (we1_last m c)
    (fun j => shapeCast_a_1a_apply _ _ 0 j) (fun j => shapeCast_a_1a_apply _ _ 0 j) _ _
    (fun k => rfl) (shapeCast_a_1a_apply _ _ 0 0)).symm

/-! ## The two results -/

/-- The kernel's first result is the reference's first result, of the same arguments. -/
theorem out_eq : (Cert.KernelIdeal.Gen.W4 m ρ c (Proc.devRef .tc Cert.KernelIdeal.main_v57) : Cert.KernelIdeal.S20000x128.Idx → EReal)
    = Cert.ReferenceIdeal.Read.val_main_v66 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  refine (Cert.KernelIdeal.HostRead.res_out m ρ c).trans ?_
  rw [msg_eq]
  exact (Cert.ReferenceIdeal.Rows.out_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) _ _ _
    (wn_top m c) (wn_bot m c) (fun j => shapeCast_a_1a_apply _ _ 0 j)).symm

/-- The kernel's second result is the reference's second result, of the same arguments. -/
theorem pos_eq : (Cert.KernelIdeal.Gen.W4 m ρ c (Proc.devRef .tc Cert.KernelIdeal.main_v48) : Cert.KernelIdeal.S20000x3.Idx → EReal)
    = Cert.ReferenceIdeal.Read.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg9)) (m ((c : Thread Cert.KernelIdeal.nD Cert.KernelIdeal.τ).loc Cert.KernelIdeal.main_arg10)) := by
  refine (Cert.KernelIdeal.HostRead.res_pos m ρ c).trans ?_
  rw [upd_eq]
  rfl

end Cert.Bridge

end
-- ==== Proof.lean ====
/-
  The certificate: the kernel (two Pallas grids among host gathers and scatter-adds), its idealization and the jnp
  reference of one message-passing layer on a graph — 20000 nodes with 128 features and a position, 640000 edges.

  Frames: the kernel's and its idealization's are the generated frame certificates; the reference has no kernel, and its
  frame is its run (a straight line of host operations) with the results dropped.  The idealization rewrote nothing, so `preserves` is trivial.
  The value claim: the idealized kernel ends with each result buffer at the last boundary's contents of its run; read
  back through the host stretches and the two grids (the row formulas of the layer at every index), those are the
  reference's two result terms of the same arguments.  The only law between the two spellings is that a sum over the
  concatenated feature axis is the sum of the sums over its pieces — associativity and commutativity of `+`, which hold
  on all extended reals, so the precondition is never opened.
-/
import proofs.«109307_j16587163698061_2_alg».proof.Defs
import proofs.«109307_j16587163698061_2_alg».proof.Proof.Gen.Kernel
import proofs.«109307_j16587163698061_2_alg».proof.Proof.Gen.Kernel.Frame
import proofs.«109307_j16587163698061_2_alg».proof.Proof.Gen.KernelIdeal
import proofs.«109307_j16587163698061_2_alg».proof.Proof.Gen.KernelIdeal.Frame
import proofs.«109307_j16587163698061_2_alg».proof.Proof.Gen.ReferenceIdeal
import proofs.«109307_j16587163698061_2_alg».proof.Proof.Gen.Pre_finite_inputs
import proofs.«109307_j16587163698061_2_alg».proof.Proof.RefRun
import proofs.«109307_j16587163698061_2_alg».proof.Proof.KernelRun
import proofs.«109307_j16587163698061_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.HandRun.run m ρ)

/-- Both idealized programs end with the same two result arrays: the kernel's are the last boundary's contents of its
    run, and those are the reference's result terms of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W4 m ρ c (Proc.devRef .tc Cert.KernelIdeal.main_v57), fun c => Cert.KernelIdeal.Gen.W4 m ρ c (Proc.devRef .tc Cert.KernelIdeal.main_v48), ?_, ?_⟩
  · refine (θ_run Cert.KernelIdeal.defs _ _).mono (fun r h c => ⟨h c _ (Cert.KernelIdeal.Gen.mem_uc Cert.KernelIdeal.main_v57 (by decide)),
      h c _ (Cert.KernelIdeal.Gen.mem_uc Cert.KernelIdeal.main_v48 (by decide)),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c),
      (h c _ (Cert.KernelIdeal.Gen.mem_uc Cert.KernelIdeal.main_arg8 (by decide))).trans (Cert.KernelIdeal.Gen.W4_main_arg8 m ρ c),
      (h c _ (Cert.KernelIdeal.Gen.mem_uc Cert.KernelIdeal.main_arg9 (by decide))).trans (Cert.KernelIdeal.Gen.W4_main_arg9 m ρ c),
      (h c _ (Cert.KernelIdeal.Gen.mem_uc Cert.KernelIdeal.main_arg10 (by decide))).trans (Cert.KernelIdeal.Gen.W4_main_arg10 m ρ c)⟩)
      (Cert.KernelIdeal.RunVal.run_held m ρ)
  · refine (θ_run Cert.ReferenceIdeal.defs _ _).mono (fun _ h c => ⟨(h c).1.trans ?_, (h c).2.1.trans ?_, (h c).2.2⟩)
      (Cert.ReferenceIdeal.HandRun.run m' ρ')
    · obtain ⟨h0, h1, h2, h3, h4, h5, h6, h7, h8, h9, h10⟩ := hagree c
      rw [h0, h1, h2, h3, h4, h5, h6, h7, h8]
      exact (Cert.Bridge.out_eq m ρ c).symm
    · obtain ⟨h0, h1, h2, h3, h4, h5, h6, h7, h8, h9, h10⟩ := hagree c
      rw [h0, h1, h2, h3, h4, h5, h6, h9, h10]
      exact (Cert.Bridge.pos_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
